-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel

variable [Facts]

def fn {F : FTy → Type} [FloatOps F] (main_arg0 : FVec F S32768x1000 .f32) (main_arg1 : IVec S32768x1000 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768x1000 32 := broadcastInDim S32768x1000 ![] bcast_S_S32768x1000 main_c_0
  let main_v5 : IVec S32768x1000 1 := cmpi .eq main_arg1 main_v4
  let main_c_1 : IVec S_ 32 := constantI S_ 32 1#32
  let main_v6 : IVec S32768x1000 32 := broadcastInDim S32768x1000 ![] bcast_S_S32768x1000 main_c_1
  let main_v7 : IVec S32768x1000 1 := cmpi .eq main_arg1 main_v6
  let main_v8 : IVec S32768x1000 1 := ori main_v5 main_v7
  let main_c_2 : IVec S_ 1 := constantI S_ 1 1#1
  let main_v9 : IVec S_ 1 := (fun x v => Host.reduce IntOp.andi x v reducesTo_S32768x1000_S_d0_1 h_S_) main_v8 main_c_2
  let main_v10 : IVec S_ 1 := andi main_v3 main_v9
  main_v10
-- ==== Kernel.lean ====
abbrev S32768x1000 : Shape := ⟨2, ![32768, 1000]⟩
abbrev S2x4x1000 : Shape := ⟨3, ![2, 4, 1000]⟩
abbrev S1024x1000 : Shape := ⟨2, ![1024, 1000]⟩
abbrev S1x4x1000 : Shape := ⟨3, ![1, 4, 1000]⟩
abbrev S1000 : Shape := ⟨1, ![1000]⟩
abbrev S1x1000 : Shape := ⟨2, ![1, 1000]⟩
abbrev S4x1000 : Shape := ⟨2, ![4, 1000]⟩
abbrev S_ : Shape := ⟨0, ![]⟩

abbrev nBuf : Space → Nat
  | .hbm => 42
  | .vmem => 6
  | .smem => 0
  | _ => 0

abbrev bufTy : (tb : Table) → Fin (tcTables nBuf tb) → BufTy
  | .hbm, ⟨0, _⟩ => ⟨S32768x1000, .f32⟩
  | .hbm, ⟨1, _⟩ => ⟨S32768x1000, .i32⟩
  | .hbm, ⟨2, _⟩ => ⟨S2x4x1000, .f32⟩
  | .hbm, ⟨3, _⟩ => ⟨S_, .f32⟩
  | .hbm, ⟨4, _⟩ => ⟨S4x1000, .f32⟩
  | .hbm, ⟨5, _⟩ => ⟨S1x1000, .f32⟩
  | .hbm, ⟨6, _⟩ => ⟨S1000, .f32⟩
  | .hbm, ⟨7, _⟩ => ⟨S1x1000, .f32⟩
  | .hbm, ⟨8, _⟩ => ⟨S1000, .f32⟩
  | .hbm, ⟨9, _⟩ => ⟨S1x1000, .f32⟩
  | .hbm, ⟨10, _⟩ => ⟨S1000, .f32⟩
  | .hbm, ⟨11, _⟩ => ⟨S1x1000, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S1000, .i1⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S1000, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S1000, .f32⟩
  | .hbm, ⟨28, _⟩ => ⟨S1000, .f32⟩
  | .hbm, ⟨29, _⟩ => ⟨S1000, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1000, .f32⟩
  | .hbm, ⟨38, _⟩ => ⟨S1000, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .i32⟩
  | .local _ .vmem, ⟨3, _⟩ => ⟨S1024x1000, .i32⟩
  | .local _ .vmem, ⟨4, _⟩ => ⟨S1x4x1000, .f32⟩
  | .local _ .vmem, ⟨5, _⟩ => ⟨S1x4x1000, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4x1000_S1x4x1000_0_0_0 : ∀ a, (![0, 0, 0] : Fin 3 → Nat) a + S1x4x1000.size a ≤ S1x4x1000.size a
  h_S1x4x1000 : 0 < S1x4x1000.numel
  inb_S1024x1000_S1024x1000_0_0 : ∀ a, (![0, 0] : Fin 2 → Nat) a + S1024x1000.size a ≤ S1024x1000.size a
  h_S1024x1000 : 0 < S1024x1000.numel
  reduces_S1024x1000_S1000 : S1024x1000.Reduces [0] S1000
  shapeCasts_S1000_S1x1000 : S1000.ShapeCasts S1x1000
  natLt_1_32 : 1 < 32
  concatenates_S1x1000_S1x1000_S1x1000_S1x1000_S4x1000_d0 : Shape.Concatenates [S1x1000, S1x1000, S1x1000, S1x1000] S4x1000 0
  shapeCasts_S1x4x1000_S4x1000 : S1x4x1000.ShapeCasts S4x1000
  shapeCasts_S4x1000_S1x4x1000 : S4x1000.ShapeCasts S1x4x1000
  reducesTo_S2x4x1000_S4x1000_d0 : S2x4x1000.ReducesTo [0] S4x1000
  h_S_ : 0 < S_.numel
  slices_S4x1000_S1x1000_0_0 : S4x1000.Slices ![0, 0] S1x1000
  shapeCasts_S1x1000_S1000 : S1x1000.ShapeCasts S1000
  slices_S4x1000_S1x1000_1_0 : S4x1000.Slices ![1, 0] S1x1000
  slices_S4x1000_S1x1000_2_0 : S4x1000.Slices ![2, 0] S1x1000
  slices_S4x1000_S1x1000_3_0 : S4x1000.Slices ![3, 0] S1x1000
  bcast_S_S1000 : S_.BroadcastsInDim S1000 (![] : Fin 0 → Fin S1000.rank)
  reducesTo_S1000_S_d0 : S1000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S32768x1000.size a
  hwx0_1 : ∀ i : grid0.Coords, EltTy.bits .i32 = 32 ∨ (Rect.block (s := S32768x1000) S1024x1000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1000.size a ≤ S2x4x1000.size a
  hwx0_2 : ∀ i : grid0.Coords, EltTy.bits .f32 = 32 ∨ (Rect.block (s := S2x4x1000) S1x4x1000.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S_ : Shape := ⟨0, ![]⟩
abbrev S1000 : Shape := ⟨1, ![1000]⟩

abbrev nBuf : Space → Nat
  | .hbm => 86
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x1000, .i32⟩
  | .hbm, ⟨2, _⟩ => ⟨S_, .i32⟩
  | .hbm, ⟨3, _⟩ => ⟨S32768x1000, .i32⟩
  | .hbm, ⟨4, _⟩ => ⟨S32768x1000, .i1⟩
  | .hbm, ⟨5, _⟩ => ⟨S_, .i32⟩
  | .hbm, ⟨6, _⟩ => ⟨S32768x1000, .i32⟩
  | .hbm, ⟨7, _⟩ => ⟨S32768x1000, .i1⟩
  | .hbm, ⟨8, _⟩ => ⟨S32768x1000, .i32⟩
  | .hbm, ⟨9, _⟩ => ⟨S_, .i32⟩
  | .hbm, ⟨10, _⟩ => ⟨S1000, .i32⟩
  | .hbm, ⟨11, _⟩ => ⟨S1000, .f32⟩
  | .hbm, ⟨12, _⟩ => ⟨S32768x1000, .i32⟩
  | .hbm, ⟨13, _⟩ => ⟨S_, .i32⟩
  | .hbm, ⟨14, _⟩ => ⟨S1000, .i32⟩
  | .hbm, ⟨15, _⟩ => ⟨S1000, .f32⟩
  | .hbm, ⟨16, _⟩ => ⟨S32768x1000, .f32⟩
  | .hbm, ⟨17, _⟩ => ⟨S_, .f32⟩
  | .hbm, ⟨18, _⟩ => ⟨S32768x1000, .f32⟩
  | .hbm, ⟨19, _⟩ => ⟨S32768x1000, .f32⟩
  | .hbm, ⟨20, _⟩ => ⟨S32768x1000, .f32⟩
  | .hbm, ⟨21, _⟩ => ⟨S32768x1000, .f32⟩
  | .hbm, ⟨22, _⟩ => ⟨S32768x1000, .i1⟩
  | .hbm, ⟨23, _⟩ => ⟨S32768x1000, .f32⟩
  | .hbm, ⟨24, _⟩ => ⟨S32768x1000, .f32⟩
  | .hbm, ⟨25, _⟩ => ⟨S32768x1000, .f32⟩
  | .hbm, ⟨26, _⟩ => ⟨S32768x1000, .f32⟩
  | .hbm, ⟨27, _⟩ => ⟨S32768x1000, .f32⟩
  | .hbm, ⟨28, _⟩ => ⟨S32768x1000, .f32⟩
  | .hbm, ⟨29, _⟩ => ⟨S32768x1000, .f32⟩
  | .hbm, ⟨30, _⟩ => ⟨S32768x1000, .f32⟩
  | .hbm, ⟨31, _⟩ => ⟨S_, .f32⟩
  | .hbm, ⟨32, _⟩ => ⟨S_, .f32⟩
  | .hbm, ⟨33, _⟩ => ⟨S32768x1000, .f32⟩
  | .hbm, ⟨34, _⟩ => ⟨S32768x1000, .f32⟩
  | .hbm, ⟨35, _⟩ => ⟨S_, .f32⟩
  | .hbm, ⟨36, _⟩ => ⟨S1000, .f32⟩
  | .hbm, ⟨37, _⟩ => ⟨S_, .f32⟩
  | .hbm, ⟨38, _⟩ => ⟨S32768x1000, .f32⟩
  | .hbm, ⟨39, _⟩ => ⟨S32768x1000, .f32⟩
  | .hbm, ⟨40, _⟩ => ⟨S32768x1000, .f32⟩
  | .hbm, ⟨41, _⟩ => ⟨S32768x1000, .f32⟩
  | .hbm, ⟨42, _⟩ => ⟨S32768x1000, .i1⟩
  | .hbm, ⟨43, _⟩ => ⟨S32768x1000, .f32⟩
  | .hbm, ⟨44, _⟩ => ⟨S32768x1000, .f32⟩
  | .hbm, ⟨45, _⟩ => ⟨S32768x1000, .f32⟩
  | .hbm, ⟨46, _⟩ => ⟨S32768x1000, .f32⟩
  | .hbm, ⟨47, _⟩ => ⟨S32768x1000, .f32⟩
  | .hbm, ⟨48, _⟩ => ⟨S32768x1000, .f32⟩
  | .hbm, ⟨49, _⟩ => ⟨S32768x1000, .f32⟩
  | .hbm, ⟨50, _⟩ => ⟨S32768x1000, .f32⟩
  | .hbm, ⟨51, _⟩ => ⟨S_, .f32⟩
  | .hbm, ⟨52, _⟩ => ⟨S_, .f32⟩
  | .hbm, ⟨53, _⟩ => ⟨S32768x1000, .f32⟩
  | .hbm, ⟨54, _⟩ => ⟨S32768x1000, .f32⟩
  | .hbm, ⟨55, _⟩ => ⟨S_, .f32⟩
  | .hbm, ⟨56, _⟩ => ⟨S1000, .f32⟩
  | .hbm, ⟨57, _⟩ => ⟨S_, .f32⟩
  | .hbm, ⟨58, _⟩ => ⟨S1000, .f32⟩
  | .hbm, ⟨59, _⟩ => ⟨S1000, .i1⟩
  | .hbm, ⟨60, _⟩ => ⟨S_, .f32⟩
  | .hbm, ⟨61, _⟩ => ⟨S1000, .f32⟩
  | .hbm, ⟨62, _⟩ => ⟨S1000, .i1⟩
  | .hbm, ⟨63, _⟩ => ⟨S1000, .i1⟩
  | .hbm, ⟨64, _⟩ => ⟨S_, .f32⟩
  | .hbm, ⟨65, _⟩ => ⟨S1000, .f32⟩
  | .hbm, ⟨66, _⟩ => ⟨S1000, .f32⟩
  | .hbm, ⟨67, _⟩ => ⟨S1000, .f32⟩
  | .hbm, ⟨68, _⟩ => ⟨S_, .f32⟩
  | .hbm, ⟨69, _⟩ => ⟨S1000, .f32⟩
  | .hbm, ⟨70, _⟩ => ⟨S1000, .f32⟩
  | .hbm, ⟨71, _⟩ => ⟨S1000, .f32⟩
  | .hbm, ⟨72, _⟩ => ⟨S1000, .f32⟩
  | .hbm, ⟨73, _⟩ => ⟨S1000, .i32⟩
  | .hbm, ⟨74, _⟩ => ⟨S_, .i32⟩
  | .hbm, ⟨75, _⟩ => ⟨S_, .i32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1000, .f32⟩
  | .hbm, ⟨82, _⟩ => ⟨S1000, .f32⟩
  | .hbm, ⟨83, _⟩ => ⟨S_, .f32⟩
  | .hbm, ⟨84, _⟩ => ⟨S_, .f32⟩
  | .hbm, ⟨85, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v11 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_v14 : Ref sig .tc := ⟨.hbm, 50, rfl⟩
abbrev main_cst_4 : Ref sig .tc := ⟨.hbm, 51, rfl⟩
abbrev main_call3_v0 : Ref sig .tc := ⟨.hbm, 52, rfl⟩
abbrev main_call3_v1 : Ref sig .tc := ⟨.hbm, 53, rfl⟩
abbrev main_v15 : Ref sig .tc := ⟨.hbm, 54, rfl⟩
abbrev main_cst_5 : Ref sig .tc := ⟨.hbm, 55, rfl⟩
abbrev main_v16 : Ref sig .tc := ⟨.hbm, 56, rfl⟩
abbrev main_cst_6 : Ref sig .tc := ⟨.hbm, 57, rfl⟩
abbrev main_v17 : Ref sig .tc := ⟨.hbm, 58, rfl⟩
abbrev main_v18 : Ref sig .tc := ⟨.hbm, 59, rfl⟩
abbrev main_cst_7 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_8 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_9 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_10 : Ref sig .tc := ⟨.hbm, 74, rfl⟩
abbrev main_v30 : Ref sig .tc := ⟨.hbm, 75, rfl⟩
abbrev main_v31 : Ref sig .tc := ⟨.hbm, 76, rfl⟩
abbrev main_cst_11 : Ref sig .tc := ⟨.hbm, 77, rfl⟩
abbrev main_v32 : Ref sig .tc := ⟨.hbm, 78, rfl⟩
abbrev main_cst_12 : Ref sig .tc := ⟨.hbm, 79, rfl⟩
abbrev main_call4_v0 : Ref sig .tc := ⟨.hbm, 80, rfl⟩
abbrev main_call4_v1 : Ref sig .tc := ⟨.hbm, 81, rfl⟩
abbrev main_v33 : Ref sig .tc := ⟨.hbm, 82, rfl⟩
abbrev main_cst_13 : Ref sig .tc := ⟨.hbm, 83, rfl⟩
abbrev main_v34 : Ref sig .tc := ⟨.hbm, 84, rfl⟩
abbrev main_v35 : Ref sig .tc := ⟨.hbm, 85, rfl⟩

abbrev nD : Nat := 1
abbrev τ : Topo := Topo.v7x

variable {F : FTy → Type} [FloatOps F]

class Facts₀ : Prop where
  bcast_S_S32768x1000 : S_.BroadcastsInDim S32768x1000 (![] : Fin 0 → Fin S32768x1000.rank)
  natLt_1_32 : 1 < 32
  reducesTo_S32768x1000_S1000_d0 : S32768x1000.ReducesTo [0] S1000
  h_S_ : 0 < S_.numel
  bcast_S_S1000 : S_.BroadcastsInDim S1000 (![] : Fin 0 → Fin S1000.rank)
  reducesTo_S1000_S_d0 : S1000.ReducesTo [0] S_

variable [Facts₀]

class Facts : Prop extends Facts₀ where

variable [Facts]
-- ==== Proof.Cases.lean ====
/-
  What one grid step leaves in the accumulator block, read back as a value: at the first step of a core's
  sixteen the block is reset to zero and the step's four row statistics are added to it; at every other
  step they are added to what the step before left.
-/
import proofs.«169377_j29618094474146_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A step that is not a core's first: the block holding `xo` ends at `xo` plus the step's statistics. -/
theorem out_B (c : Dev nD) (i : grid0.Coords) (a2 : Memref sig .tc .vmem S1024x1000 .f32) (h2 : a2.IsWhole)
    (a3 : Memref sig .tc .vmem S1024x1000 .i32) (h3 : a3.IsWhole) (a4 : Memref sig .tc .vmem S1x4x1000 .f32) (h4 : a4.IsWhole)
    (hc : ¬cond0_0 i) (x0 : Vec F S1024x1000 .f32) (x1 : Vec F S1024x1000 .i32) (xo : Vec F S1x4x1000 .f32) :
    out0_B_2 c i a2 h2 a3 h3 a4 h4 hc x0 x1 xo = k0_pay1 (k0_pay3 x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1024x1000) hz2,
    View.ld_unit_zero (S := S1x4x1000) hz3]

/-- A core's first step: the block is reset to the zero block, then the step's statistics are added. -/
theorem out_A (c : Dev nD) (i : grid0.Coords) (a2 : Memref sig .tc .vmem S1024x1000 .f32) (h2 : a2.IsWhole)
    (a3 : Memref sig .tc .vmem S1024x1000 .i32) (h3 : a3.IsWhole) (a4 : Memref sig .tc .vmem S1x4x1000 .f32) (h4 : a4.IsWhole)
    (hc : cond0_0 i) (x0 : Vec F S1024x1000 .f32) (x1 : Vec F S1024x1000 .i32) :
    out0_A_2 c i a2 h2 a3 h3 a4 h4 hc x0 x1 = k0_pay1 (k0_pay3 x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x1000) hz3, View.readCov_unit_zero (S := S1x4x1000) _ hz3]
  simp only [View.readAt_eq_ld, h2.read_unread, h3.read_unread, View.ld_unit_zero (S := S1024x1000) hz2]

end Cert.KernelIdeal.Acc

end
-- ==== Proof.Scalars.lean ====
/-
  Scalar laws on the extended reals behind the per-column statistics.

  softplus a = max a 0 + log (1 + e^(-|a|)) is how both programs evaluate log (1 + e^a).  On a real x it
  satisfies the reflection x + softplus (-x) = softplus x (because x + max (-x) 0 = max x 0 and |-x| = |x|),
  which lets one evaluation of softplus (-x) serve the positive and the negative class.  A one-bit word
  widened to 32 bits and read as a signed integer is 0 or 1.
-/
import Idealize.ShloMosaic.PureOps.Ideal
import Idealize.ShloMosaic.PureOps.Ideal.Laws

noncomputable section

namespace Cert.Stats

open Idealize.ShloMosaic

/-- softplus on the extended reals, in the overflow-free form both programs print. -/
def sp (a : EReal) : EReal := max a 0 + Ideal.log1p (Ideal.exp (-(max a (-a))))

/-- On a real `x`: `x + max (-x) 0 = max x 0`. -/
theorem add_max_neg (x : ℝ) : (x : EReal) + max (-(x : EReal)) 0 = max (x : EReal) 0 := by
  rcases le_total x 0 with h | h
  · have h1 : (x : EReal) ≤ 0 := by exact_mod_cast h
    have h2 : (0 : EReal) ≤ -(x : EReal) := by
      rw [← EReal.coe_neg]; exact_mod_cast neg_nonneg.mpr h
    rw [max_eq_left h2, max_eq_right h1, ← EReal.coe_neg, ← EReal.coe_add, add_neg_cancel, EReal.coe_zero]
  · have h1 : (0 : EReal) ≤ (x : EReal) := by exact_mod_cast h
    have h2 : -(x : EReal) ≤ 0 := by
      rw [← EReal.coe_neg]; exact_mod_cast neg_nonpos.mpr h
    rw [max_eq_right h2, max_eq_left h1, add_zero]

/-- The reflection: on a real `x`, `x + softplus (-x) = softplus x`. -/
theorem reflect (x : ℝ) : (x : EReal) + sp (-(x : EReal)) = sp (x : EReal) := by
  unfold sp
  rw [neg_neg, max_comm (-(x : EReal)) (x : EReal), ← add_assoc, add_max_neg]

/-- A one-bit word widened to 32 bits, read as a signed integer: 1 for the set bit, 0 otherwise. -/
theorem toInt_setWidth (b : BitVec 1) : ((b.setWidth 32).toInt : ℝ) = if b = 1#1 then 1 else 0 := by
  rcases BitVec.eq_zero_or_eq_one b with h | h <;> subst h <;> simp

end Cert.Stats

end
-- ==== Proof.Terms.lean ====
/-
  The per-element terms of the four column statistics, as each program spells them, and the laws between
  them.  The kernel evaluates softplus (-x) once (`kSp`) and adds x for the negative class; the reference
  evaluates softplus at -x and at x (`hSp`).  Both spell softplus as max a 0 + log (1 + e^(-|a|)) guarded by
  a test a ≠ a that never fires on the extended reals, so each is `sp`; the reflection
  x + softplus (-x) = softplus x on a real x and the fact that a label 0 or 1 is positive exactly when it is
  not negative make the kernel's and the reference's summands equal.
-/
import proofs.«169377_j29618094474146_2_alg».proof.Proof.Scalars

noncomputable section

namespace Cert.Stats

open Idealize.ShloMosaic

/-- The float literal `0.0`. -/
abbrev z : EReal := Ideal.ofBits .f32 0x00000000#32

theorem z_eq : z = 0 := Ideal.ofBits_zero_f32

/-- The label is the positive class. -/
def isPos (y : BitVec 32) : BitVec 1 := IntOp.cmpi .eq y 1#32
/-- The label is the negative class. -/
def isNeg (y : BitVec 32) : BitVec 1 := IntOp.cmpi .eq y 0#32

/-- softplus (-x) as the kernel spells it. -/
def kSp (x : EReal) : EReal :=
  Scalar.select (Ideal.cmp .one ((z - x) - z) ((z - x) - z)) ((z - x) + z)
    (max (z - x) z + Ideal.log1p (Ideal.exp (z - max ((z - x) - z) (-((z - x) - z)))))

/-- softplus a as the reference spells it. -/
def hSp (a : EReal) : EReal :=
  Scalar.select (Ideal.cmp .une (a - z) (a - z)) (a + z)
    (max a z + Ideal.log1p (Ideal.exp (-(max (a - z) (-(a - z))))))

theorem hSp_eq (a : EReal) : hSp a = sp a := by
  unfold hSp sp
  simp only [z_eq, sub_eq_add_neg, neg_zero, add_zero, Ideal.cmp, ne_eq, not_true_eq_false, decide_false,
    BitVec.ofBool_false, Scalar.select]
  rfl

theorem kSp_eq (x : EReal) : kSp x = sp (-x) := by
  unfold kSp sp
  simp only [z_eq, sub_eq_add_neg, neg_zero, add_zero, zero_add, Ideal.cmp, ne_eq, not_true_eq_false, decide_false,
    BitVec.ofBool_false, Scalar.select]
  rfl

/-- The kernel's summands at a row: positive-class loss, negative-class loss, positive count. -/
def T0 (x : EReal) (y : BitVec 32) : EReal := Scalar.select (isPos y) (kSp x) z
def T1 (x : EReal) (y : BitVec 32) : EReal := Scalar.select (isPos y) z (x + kSp x)
def T2 (y : BitVec 32) : EReal := ((((isPos y).setWidth 32).toInt : ℝ) : EReal)

/-- The reference's summands at a row. -/
def R0 (x : EReal) (y : BitVec 32) : EReal := Scalar.select (isPos y) (hSp (-x)) z
def R1 (x : EReal) (y : BitVec 32) : EReal := Scalar.select (isNeg y) (hSp x) z

/-- The positive-class summands agree on every input. -/
theorem T0_eq (x : EReal) (y : BitVec 32) : T0 x y = R0 x y := by
  unfold T0 R0; rw [kSp_eq, hSp_eq]

/-- The negative-class summands agree on a finite score and a binary label. -/
theorem T1_eq (x : ℝ) (y : BitVec 32) (hy : y = 0#32 ∨ y = 1#32) : T1 (x : EReal) y = R1 (x : EReal) y := by
  unfold T1 R1
  rw [kSp_eq, hSp_eq, reflect]
  rcases hy with rfl | rfl
  · have h1 : isPos 0#32 = 0#1 := by decide
    have h2 : isNeg 0#32 = 1#1 := by decide
    rw [h1, h2]; rfl
  · have h1 : isPos 1#32 = 1#1 := by decide
    have h2 : isNeg 1#32 = 0#1 := by decide
    rw [h1, h2]; rfl

/-- The indicator of the positive class as a real. -/
def ind (y : BitVec 32) : ℝ := if isPos y = 1#1 then 1 else 0
/-- The indicator of the negative class as a real. -/
def indN (y : BitVec 32) : ℝ := if isNeg y = 1#1 then 1 else 0

theorem T2_eq (y : BitVec 32) : T2 y = ((ind y : ℝ) : EReal) := by
  unfold T2 ind; rw [toInt_setWidth]

/-- On a binary label the two indicators add to one. -/
theorem indN_eq (y : BitVec 32) (hy : y = 0#32 ∨ y = 1#32) : indN y = 1 - ind y := by
  unfold indN ind
  rcases hy with rfl | rfl
  · have h1 : isPos 0#32 = 0#1 := by decide
    have h2 : isNeg 0#32 = 1#1 := by decide
    rw [h1, h2]; norm_num
  · have h1 : isPos 1#32 = 1#1 := by decide
    have h2 : isNeg 1#32 = 0#1 := by decide
    rw [h1, h2]; norm_num

end Cert.Stats

end
-- ==== Proof.Payloads.lean ====
/-
  The kernel body's arithmetic read at an index.  One grid step turns its 1024 × 1000 blocks of scores and
  labels into four rows of 1000 column statistics — row 0 the sum over the block's rows of the positive-class
  summand, row 1 of the negative-class summand, row 2 the number of positive labels, row 3 the block's 1024
  rows minus that number — and adds them, entry by entry, to the accumulator block.
-/
import proofs.«169377_j29618094474146_2_alg».proof.Proof.Gen.KernelIdeal.Skeleton
import proofs.«169377_j29618094474146_2_alg».proof.Proof.Terms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Stats
open scoped BigOperators

/-- The accumulator's update at an entry: what the block held plus the step's statistic. -/
theorem pay1_apply (v38 : FVec Ideal S4x1000 .f32) (v39 : Vec Ideal S1x4x1000 .f32) (q : Fin 4) (j : Fin 1000) :
    k0_pay1 (F := Ideal) v38 v39 (ix3 (0 : Fin 1) q j) = v39 (ix3 (0 : Fin 1) q j) + v38 (ix2 q j) := by
  unfold k0_pay1
  refine (shapeCast_ab_1ab_apply _ _ (0 : Fin 1) q j).trans ?_
  refine congrArg (· + v38 (ix2 q j)) ?_
  exact shapeCast_1ab_ab_apply v39 _ q j

/-- The reset block is zero everywhere. -/
theorem pay2_apply (i : S1x4x1000.Idx) : k0_pay2 (F := Ideal) i = z := rfl

/-- A sum down the 1024 rows of a block, at column `j`. -/
theorem colsum (src : FVec Ideal S1024x1000 .f32) (h : S1024x1000.Reduces [0] S1000) (hφ : FKind.Formats .f32)
    (hacc : (0x00000000#32 : BitVec 32) = FKind.add.neutral .f32 hφ) (j : Fin 1000) :
    multiReduction .add [0] S1000 src 0x00000000#32 h hφ hacc (ix1 j) = ∑ r : Fin 1024, src (ix2 r j) := by
  refine (Ideal.multiReduction_add_single src _ h hφ hacc (ix1 j)).trans ?_
  exact Finset.sum_congr rfl fun k _ =>
    congrArg src (funext fun a => Fin.ext (by match a with | ⟨0, _⟩ => rfl | ⟨1, _⟩ => rfl))

/-- Four rows of length `n` stacked into a 4 × n array, read at row `q`. -/
theorem stack4_apply {α : Type} (r0 r1 r2 r3 : S1x1000.Idx → α)
    (h : Shape.Concatenates [S1x1000, S1x1000, S1x1000, S1x1000] S4x1000 0) (q : Fin 4) (j : Fin 1000) :
    concatenate S4x1000 0 [⟨S1x1000, r0⟩, ⟨S1x1000, r1⟩, ⟨S1x1000, r2⟩, ⟨S1x1000, r3⟩] h (ix2 q j)
      = (match q with | 0 => r0 | 1 => r1 | 2 => r2 | 3 => r3) (ix2 (0 : Fin 1) j) := by
  match q with
  | ⟨0, _⟩ =>
    exact concatenate_apply_piece (t := S4x1000) 0 [⟨S1x1000, r0⟩, ⟨S1x1000, r1⟩, ⟨S1x1000, r2⟩, ⟨S1x1000, r3⟩] h _ 0 (by simp) S1x1000 r0 rfl rfl 0 rfl (ix2 (0 : Fin 1) j)
      (fun b hb => by match b with | ⟨0, _⟩ => exact absurd rfl hb | ⟨1, _⟩ => rfl) rfl
  | ⟨1, _⟩ =>
    exact concatenate_apply_piece (t := S4x1000) 0 [⟨S1x1000, r0⟩, ⟨S1x1000, r1⟩, ⟨S1x1000, r2⟩, ⟨S1x1000, r3⟩] h _ 1 (by simp) S1x1000 r1 rfl rfl 1 rfl (ix2 (0 : Fin 1) j)
      (fun b hb => by match b with | ⟨0, _⟩ => exact absurd rfl hb | ⟨1, _⟩ => rfl) rfl
  | ⟨2, _⟩ =>
    exact concatenate_apply_piece (t := S4x1000) 0 [⟨S1x1000, r0⟩, ⟨S1x1000, r1⟩, ⟨S1x1000, r2⟩, ⟨S1x1000, r3⟩] h _ 2 (by simp) S1x1000 r2 rfl rfl 2 rfl (ix2 (0 : Fin 1) j)
      (fun b hb => by match b with | ⟨0, _⟩ => exact absurd rfl hb | ⟨1, _⟩ => rfl) rfl
  | ⟨3, _⟩ =>
    exact concatenate_apply_piece (t := S4x1000) 0 [⟨S1x1000, r0⟩, ⟨S1x1000, r1⟩, ⟨S1x1000, r2⟩, ⟨S1x1000, r3⟩] h _ 3 (by simp) S1x1000 r3 rfl rfl 3 rfl (ix2 (0 : Fin 1) j)
      (fun b hb => by match b with | ⟨0, _⟩ => exact absurd rfl hb | ⟨1, _⟩ => rfl) rfl

/-- Row 0 of a step's statistics: the positive-class loss summed down the block. -/
theorem pay3_row0 (x0 : Vec Ideal S1024x1000 .f32) (x1 : Vec Ideal S1024x1000 .i32) (j : Fin 1000) :
    k0_pay3 (F := Ideal) x0 x1 (ix2 (0 : Fin 4) j) = ∑ r : Fin 1024, T0 (x0 (ix2 r j)) (x1 (ix2 r j)) := by
  unfold k0_pay3
  refine (stack4_apply _ _ _ _ _ 0 j).trans ?_
  refine (shapeCast_a_1a_apply _ _ (0 : Fin 1) j).trans ?_
  refine (colsum _ _ _ _ j).trans ?_
  rfl

/-- Row 1: the negative-class loss summed down the block. -/
theorem pay3_row1 (x0 : Vec Ideal S1024x1000 .f32) (x1 : Vec Ideal S1024x1000 .i32) (j : Fin 1000) :
    k0_pay3 (F := Ideal) x0 x1 (ix2 (1 : Fin 4) j) = ∑ r : Fin 1024, T1 (x0 (ix2 r j)) (x1 (ix2 r j)) := by
  unfold k0_pay3
  refine (stack4_apply _ _ _ _ _ 1 j).trans ?_
  refine (shapeCast_a_1a_apply _ _ (0 : Fin 1) j).trans ?_
  refine (colsum _ _ _ _ j).trans ?_
  rfl

/-- Row 2: the number of positive labels in the block's column. -/
theorem pay3_row2 (x0 : Vec Ideal S1024x1000 .f32) (x1 : Vec Ideal S1024x1000 .i32) (j : Fin 1000) :
    k0_pay3 (F := Ideal) x0 x1 (ix2 (2 : Fin 4) j) = ∑ r : Fin 1024, T2 (x1 (ix2 r j)) := by
  unfold k0_pay3
  refine (stack4_apply _ _ _ _ _ 2 j).trans ?_
  refine (shapeCast_a_1a_apply _ _ (0 : Fin 1) j).trans ?_
  refine (colsum _ _ _ _ j).trans ?_
  rfl

/-- Row 3: the block's 1024 rows less the positive labels. -/
theorem pay3_row3 (x0 : Vec Ideal S1024x1000 .f32) (x1 : Vec Ideal S1024x1000 .i32) (j : Fin 1000) :
    k0_pay3 (F := Ideal) x0 x1 (ix2 (3 : Fin 4) j)
      = Ideal.ofBits .f32 0x44800000#32 - ∑ r : Fin 1024, T2 (x1 (ix2 r j)) := by
  unfold k0_pay3
  refine (stack4_apply _ _ _ _ _ 3 j).trans ?_
  refine congrArg (Ideal.ofBits .f32 0x44800000#32 - ·) ?_
  refine (shapeCast_a_1a_apply _ _ (0 : Fin 1) j).trans ?_
  refine (colsum _ _ _ _ j).trans ?_
  rfl

end Cert.KernelIdeal.Pay

end
-- ==== Proof.LibResetAcc.lean ====
/-
  General lemma: an accumulator carried across consecutive steps and reset at every sixteenth step (a grid
  accumulator whose output block changes every sixteen points).  After step n it holds the reset value plus
  the terms of the steps since the last reset (`acc_eq`); at the last step of a group of sixteen, the reset
  value plus the group's sixteen terms (`acc_last`).  In any commutative additive monoid; imports only Mathlib.
-/
import Mathlib.Algebra.BigOperators.Fin
import Mathlib.Tactic.Ring

namespace Cert.Stats

/-- The accumulator after step `n`: reset to `z` at the steps divisible by 16, the step's term `B n` added. -/
def acc {M : Type*} [Add M] (z : M) (B : ℕ → M) : ℕ → M
  | 0 => z + B 0
  | n + 1 => if (n + 1) % 16 = 0 then z + B (n + 1) else acc z B n + B (n + 1)

/-- After step `n` the accumulator is `z` plus the terms of the steps `16 ⌊n/16⌋ … n`. -/
theorem acc_eq {M : Type*} [AddCommMonoid M] (z : M) (B : ℕ → M) (n : ℕ) :
    acc z B n = z + ∑ i ∈ Finset.range (n % 16 + 1), B (n / 16 * 16 + i) := by
  induction n with
  | zero => simp [acc]
  | succ n ih =>
    rw [acc]
    split_ifs with h
    · have e : (n + 1) / 16 * 16 = n + 1 := by omega
      rw [h, e, Finset.sum_range_one, add_zero]
    · have e1 : (n + 1) % 16 = n % 16 + 1 := by omega
      have e2 : (n + 1) / 16 = n / 16 := by omega
      have e3 : n / 16 * 16 + (n % 16 + 1) = n + 1 := by omega
      rw [ih, e1, e2, Finset.sum_range_succ _ (n % 16 + 1), e3, add_assoc]

/-- At the last step of the `p`-th group of sixteen the accumulator is `z` plus that group's sixteen terms. -/
theorem acc_last {M : Type*} [AddCommMonoid M] (z : M) (B : ℕ → M) (p : ℕ) :
    acc z B (16 * p + 15) = z + ∑ i : Fin 16, B (16 * p + i.val) := by
  have e1 : (16 * p + 15) % 16 + 1 = 16 := by omega
  have e2 : (16 * p + 15) / 16 * 16 = 16 * p := by omega
  rw [acc_eq, e1, e2, Finset.sum_range]

end Cert.Stats
-- ==== Proof.AccValue.lean ====
/-
  The accumulator across the grid.  The grid's 32 steps run in order; steps 16 p … 16 p + 15 belong to
  output block p, which is reset at step 16 p, receives every step's statistics, and is written back
  after step 16 p + 15.  So entry (p, q, j) of the result array ends at zero plus the sixteen statistics
  (q, j) of the steps of group p.
-/
import proofs.«169377_j29618094474146_2_alg».proof.Proof.Cases
import proofs.«169377_j29618094474146_2_alg».proof.Proof.Payloads
import proofs.«169377_j29618094474146_2_alg».proof.Proof.LibResetAcc

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pay Idealize.ShloMosaic.ValueIdx Cert.Stats
open scoped BigOperators

variable (m : (ℓ : Loc nD τ sig) → Buf (Elt Ideal) ℓ)

/-- Statistic (q, j) of step `t` (zero outside the grid and the block). -/
def stat (c : Dev nD) (t q j : ℕ) : EReal :=
  if h : t < cfg0.N ∧ q < 4 ∧ j < 1000 then
    k0_pay3 (F := Ideal) (iblk m c 0 ⟨t, h.1⟩) (iblk m c 1 ⟨t, h.1⟩) (ix2 (⟨q, h.2.1⟩ : Fin 4) (⟨j, h.2.2⟩ : Fin 1000))
  else 0

theorem stat_eq (c : Dev nD) (t : ℕ) (ht : t < cfg0.N) (q : Fin 4) (j : Fin 1000) :
    stat m c t q.val j.val = k0_pay3 (F := Ideal) (iblk m c 0 ⟨t, ht⟩) (iblk m c 1 ⟨t, ht⟩) (ix2 q j) := by
  unfold stat
  rw [dif_pos ⟨ht, q.isLt, j.isLt⟩]

/-- What the accumulator block holds after step `n`, entry by entry: the accumulation since the last reset. -/
theorem outsAt_apply (c : Dev nD) : ∀ (n : ℕ) (hn : n < cfg0.N) (q : Fin 4) (j : Fin 1000),
    outsAt0 (F := Ideal) m c n hn (ix3 (0 : Fin 1) q j) = Stats.acc z (fun t => stat m c t q.val j.val) n
  | 0, hn, q, j => by
    rw [outsAt0_A m c ⟨0, hn⟩ rfl, out_A, pay1_apply, pay2_apply, Stats.acc, stat_eq m c 0 hn]
  | n + 1, hn, q, j => by
    rw [Stats.acc]
    by_cases h0 : (n + 1) % 16 = 0
    · rw [if_pos h0, outsAt0_A m c ⟨n + 1, hn⟩ h0, out_A, pay1_apply, pay2_apply, stat_eq m c (n + 1) hn]
    · rw [if_neg h0, outsAt0_B m c ⟨n + 1, hn⟩ h0, out_B, pay1_apply, stat_eq m c (n + 1) hn]
      refine congrArg (· + _) ?_
      exact outsAt_apply c n _ q j

/-- The result array after the run, entry by entry. -/
def Gfin (c : Dev nD) : S2x4x1000.Idx → EReal := fun i =>
  z + ∑ k : Fin 16, stat m c (16 * (i 0).val + k.val) (i 1).val (i 2).val

/-- The output window's block index at step `t`: block ⌊t/16⌋ of the first axis. -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- What a write-back step writes is its block of `Gfin`. -/
theorem flushed_eq (c : Dev nD) (t : Fin cfg0.N) (hf : (cfg0.win 2).flush t = true) :
    (dats m 0 c).flushed 2 t = ((cfg0.win 2).blk t).view.read (Elt Ideal) (Gfin m c) := by
  have hN : cfg0.N = 32 := N_0
  have h15 : t.val % 16 = 15 := (flush0_2 t).mp hf
  obtain ⟨e0, e1, e2⟩ := idx_out t
  show (cfg0.win 2).cut (grid0.coords t) ((dats m 0 c).after 2 t) = _
  rw [after0_2]
  funext (y : S1x4x1000.Idx)
  obtain ⟨q, j, rfl⟩ : ∃ (q : Fin 4) (j : Fin 1000), y = ix3 (0 : Fin 1) q j := by
    refine ⟨y 1, y 2, ?_⟩
    funext a
    match a with
    | ⟨0, _⟩ => exact Fin.ext (by have h : (y 0).val < 1 := (y 0).isLt; show (y 0).val = 0; omega)
    | ⟨1, _⟩ => rfl
    | ⟨2, _⟩ => rfl
  refine (outsAt_apply m c t.val t.isLt q j).trans ?_
  have ht : t.val = 16 * (t.val / 16) + 15 := by omega
  have hl := Stats.acc_last z (fun t => stat m c t q.val j.val) (t.val / 16)
  rw [← ht] at hl
  rw [hl]
  show _ = Gfin m c (((cfg0.win 2).blk t).view.emb (ix3 (0 : Fin 1) q j))
  unfold Gfin
  have c0 : ((((cfg0.win 2).blk t).view.emb (ix3 (0 : Fin 1) q j)) 0).val = t.val / 16 := by
    show win0_2.index t (0 : Fin 3) * 1 + 1 * 0 = _
    rw [e0]; omega
  have c1 : ((((cfg0.win 2).blk t).view.emb (ix3 (0 : Fin 1) q j)) 1).val = q.val := by
    show win0_2.index t (1 : Fin 3) * 4 + 1 * q.val = _
    rw [e1]; omega
  have c2 : ((((cfg0.win 2).blk t).view.emb (ix3 (0 : Fin 1) q j)) 2).val = j.val := by
    show win0_2.index t (2 : Fin 3) * 1000 + 1 * j.val = _
    rw [e2]; omega
  rw [c0, c1, c2]

/-- An index of the array is in step `t`'s block iff each coordinate is in the block's range on its axis. -/
theorem mem_blk (t : Fin cfg0.N) (i : S2x4x1000.Idx) :
    i ∈ ((cfg0.win 2).blk t).view.set ↔ ∀ a : Fin 3, win0_2.index t a * S1x4x1000.size a ≤ (i a).val
      ∧ (i a).val < win0_2.index t a * S1x4x1000.size a + S1x4x1000.size a := by
  show i ∈ ((View.whole main_v0).slice (win0_2.rect t)).set ↔ _
  rw [View.set_slice_whole, Rect.mem_set_unit]
  exact Iff.rfl

/-- The result array after the run: the sixteen statistics of each group, accumulated from zero. -/
theorem final (c : Dev nD) : (dats m 0 c).arrAt 2 cfg0.N = Gfin m c := by
  have hN : cfg0.N = 32 := N_0
  refine (dats m 0 c).arrAt_eq_of_cover 2 (Gfin m c) (flushed_eq m c) fun i => ?_
  have h0 : (i 0).val < 2 := (i 0).isLt
  have h1 : (i 1).val < 4 := (i 1).isLt
  have h2 : (i 2).val < 1000 := (i 2).isLt
  let t : Fin cfg0.N := ⟨16 * (i 0).val + 15, by rw [hN]; omega⟩
  have htv : t.val = 16 * (i 0).val + 15 := rfl
  obtain ⟨e0, e1, e2⟩ := idx_out t
  refine ⟨t, (flush0_2 t).mpr (by rw [htv]; omega), ?_⟩
  rw [mem_blk]
  intro a
  match a with
  | ⟨0, _⟩ =>
    show win0_2.index t (0 : Fin 3) * 1 ≤ (i 0).val ∧ (i 0).val < win0_2.index t (0 : Fin 3) * 1 + 1
    rw [e0, htv]; omega
  | ⟨1, _⟩ =>
    show win0_2.index t (1 : Fin 3) * 4 ≤ (i 1).val ∧ (i 1).val < win0_2.index t (1 : Fin 3) * 4 + 4
    rw [e1]; omega
  | ⟨2, _⟩ =>
    show win0_2.index t (2 : Fin 3) * 1000 ≤ (i 2).val ∧ (i 2).val < win0_2.index t (2 : Fin 3) * 1000 + 1000
    rw [e2]; omega

end Cert.KernelIdeal.Acc

end
-- ==== Proof.Tail.lean ====
/-
  What both programs do with the four column statistics — positive-class loss sum, negative-class loss sum,
  positive count, negative count, each a vector over the 1000 columns — as ONE function: a column is valid
  when both counts are positive, its loss is the two means added (each count floored at 1), and the result
  is the sum of the valid columns' losses over the number of valid columns floored at 1.  Both programs
  apply exactly these operations, so the function is carried whole and never opened.
-/
import Idealize.ShloMosaic.PureOps.Ideal
import Idealize.ShloMosaic.PureOps.Contract

noncomputable section

namespace Cert.Stats

open Idealize.ShloMosaic

abbrev Col1000 : Shape := ⟨1, ![1000]⟩
abbrev Scal0 : Shape := ⟨0, ![]⟩

/-- The mean loss over the valid columns, from the four column statistics. -/
def tail (hb : Scal0.BroadcastsInDim Col1000 (![] : Fin 0 → Fin Col1000.rank)) (hr : Col1000.ReducesTo [0] Scal0) (h0 : 0 < Scal0.numel)
    (h1 : 1 < 32) (sp sn np nn : FVec Ideal Col1000 .f32) : FVec Ideal Scal0 .f32 :=
  Host.divf (F := Ideal)
    (Host.reduceAdd (F := Ideal)
      (select
        (andi (cmpf (F := Ideal) .ogt np (broadcastInDim Col1000 ![] hb (constant (F := Ideal) Scal0 .f32 0x00000000#32)))
          (cmpf (F := Ideal) .ogt nn (broadcastInDim Col1000 ![] hb (constant (F := Ideal) Scal0 .f32 0x00000000#32))))
        (addf
          (Host.divf (F := Ideal) sp (maximumf np (broadcastInDim Col1000 ![] hb (constant (F := Ideal) Scal0 .f32 0x3F800000#32))))
          (Host.divf (F := Ideal) sn (maximumf nn (broadcastInDim Col1000 ![] hb (constant (F := Ideal) Scal0 .f32 0x3F800000#32)))))
        (broadcastInDim Col1000 ![] hb (id (constant (F := Ideal) Scal0 .f32 0x00000000#32))))
      (constant (F := Ideal) Scal0 .f32 0x00000000#32) hr h0)
    (maximumf
      (sitofp (F := Ideal) .f32
        (Host.reduce IntOp.addi
          (extui 32
            (andi (cmpf (F := Ideal) .ogt np (broadcastInDim Col1000 ![] hb (constant (F := Ideal) Scal0 .f32 0x00000000#32)))
              (cmpf (F := Ideal) .ogt nn (broadcastInDim Col1000 ![] hb (constant (F := Ideal) Scal0 .f32 0x00000000#32))))
            h1)
          (constantI Scal0 32 0#32) hr h0))
      (constant (F := Ideal) Scal0 .f32 0x3F800000#32))

end Cert.Stats

end
-- ==== Proof.KernelRun.lean ====
/-
  The kernel program's result.  After the grid the host adds the two cores' partial blocks, takes the four
  rows apart as the four column statistics, and applies the shared function to them.
-/
import proofs.«169377_j29618094474146_2_alg».proof.Proof.AccValue
import proofs.«169377_j29618094474146_2_alg».proof.Proof.Tail
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Acc Idealize.ShloMosaic.ValueIdx Cert.Stats
open scoped BigOperators

variable (m : (ℓ : Loc nD τ sig) → Buf (Elt Ideal) ℓ) (ρ : Dev nD → PrngReg)

/-- The two cores' partial blocks added. -/
def total (G : FVec Ideal S2x4x1000 .f32) : FVec Ideal S4x1000 .f32 :=
  Host.reduceAdd (F := Ideal) G (constant (F := Ideal) S_ .f32 0x00000000#32) reducesTo_S2x4x1000_S4x1000_d0 h_S_

/-- Row `q` of the total as a vector over the columns. -/
def col0 (G : FVec Ideal S2x4x1000 .f32) : FVec Ideal S1000 .f32 :=
  shapeCast S1000 (extractStridedSlice S1x1000 ![0, 0] (total G) slices_S4x1000_S1x1000_0_0) shapeCasts_S1x1000_S1000
def col1 (G : FVec Ideal S2x4x1000 .f32) : FVec Ideal S1000 .f32 :=
  shapeCast S1000 (extractStridedSlice S1x1000 ![1, 0] (total G) slices_S4x1000_S1x1000_1_0) shapeCasts_S1x1000_S1000
def col2 (G : FVec Ideal S2x4x1000 .f32) : FVec Ideal S1000 .f32 :=
  shapeCast S1000 (extractStridedSlice S1x1000 ![2, 0] (total G) slices_S4x1000_S1x1000_2_0) shapeCasts_S1x1000_S1000
def col3 (G : FVec Ideal S2x4x1000 .f32) : FVec Ideal S1000 .f32 :=
  shapeCast S1000 (extractStridedSlice S1x1000 ![3, 0] (total G) slices_S4x1000_S1x1000_3_0) shapeCasts_S1x1000_S1000

/-- The program's result from the result array of the grid. -/
def result (G : FVec Ideal S2x4x1000 .f32) : FVec Ideal S_ .f32 :=
  Stats.tail bcast_S_S1000 reducesTo_S1000_S_d0 h_S_ natLt_1_32 (col0 G) (col1 G) (col2 G) (col3 G)

set_option maxRecDepth 8192 in
set_option maxHeartbeats 16000000 in
/-- The host operations after the grid compute `result` of the array the grid leaves. -/
theorem result_eq (c : Dev nD) :
    Pipeline.afterTail₀ cfgs (dats m) 0 (Gen.V0 m) [hostOps1, hostOps1_1, hostOps1_2] c main_v28 = result (Gfin m c) := by
  have e : Pipeline.withArrays (cfgs 0).spec c (Gen.V0 m c) (fun w => (dats m 0 c).arrAt w (cfgs 0).N) (Proc.devRef .tc main_v0) = Gfin m c :=
    (Pipeline.withArrays_arr spec0 launch0.win.arr_inj c (Gen.V0 m c) (fun w => (dats m 0 c).arrAt w cfg0.N) 2).trans (final m c)
  unfold Pipeline.afterTail₀
  simp only [hostOps1, hostOps1_1, hostOps1_2, List.flatten_cons, List.flatten_nil, List.append_nil, List.cons_append,
    List.nil_append]
  after_results_simp
  rw [e]
  rfl

/-- The result buffer bypasses the grid: it is no window's array. -/
theorem result_mem : main_v28 ∈ Pipeline.restRefs sig (cfgs 0).spec :=
  Pipeline.mem_restRefs_of main_v28 rfl (fun w => by fin_cases w <;> decide)

/-- The kernel program's run, read: the result at `result` of the grid's array, the arguments unchanged. -/
theorem run : θ_run defs (onTc (τ := τ) (main (F := Ideal))) ⟨m, fun _ => 0, ρ⟩ fun r => ∀ c : Dev nD,
      r.2.mem ((c.tc : Thread nD τ).loc main_v28) = result (Gfin m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v28 result_mem).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.LibStats.lean ====
/-
  General lemmas on finite sums of extended reals: the coercion of a real sum, the regrouping of a sum
  over `n * b` indices into `n` blocks of `b`, the split of a sum over `m + n` indices into its first `m`
  and last `n` terms, the identity "mean of squares minus squared mean = mean of squared deviations" over
  finite extended reals with the ideal division by a nonzero real constant, and the two float literals
  `0.0` and `50000.0` as the extended reals they denote.
-/
import Idealize.ShloMosaic.PureOps.Ideal
import Mathlib.Algebra.BigOperators.Fin
import Mathlib.Algebra.BigOperators.Ring.Finset
import Mathlib.Tactic.Ring
import Mathlib.Tactic.FieldSimp
import Mathlib.Tactic.NormNum
import Mathlib.Tactic.Linarith

noncomputable section

namespace Cert.LibStats

open Idealize.ShloMosaic
open scoped BigOperators

/-! ### (L1) The coercion `ℝ → EReal` commutes with finite sums -/

/-- The coercion of a finite sum of reals is the sum of the coercions: `↑(∑ i ∈ s, f i) = ∑ i ∈ s, ↑(f i)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type: `↑(∑ i, f i) = ∑ i, ↑(f i)`. -/
theorem coe_sum_univ {ι : Type*} [Fintype ι] (f : ι → ℝ) :
    ((∑ i, f i : ℝ) : EReal) = ∑ i, (f i : EReal) :=
  coe_sum Finset.univ f

/-! ### (L2) A sum over `n * b` indices, regrouped into `n` blocks of `b` -/

/-- The `r`-th index of the `t`-th block of size `b` lies below `n * b`: `b * t + r < n * b` for `t < n`, `r < b`. -/
theorem block_lt {n b t r : ℕ} (ht : t < n) (hr : r < b) : b * t + r < n * b := by
  calc b * t + r < b * t + b := Nat.add_lt_add_left hr _
    _ = b * (t + 1) := by ring
    _ ≤ b * n := Nat.mul_le_mul_left _ ht
    _ = n * b := Nat.mul_comm _ _

/-- Block regrouping, in any commutative additive monoid (no finiteness needed): the sum over `m = n * b`
    indices is the sum over the `n` blocks of the sums over the `b` indices `b * t + r` of block `t`. -/
theorem sum_blocks {M : Type*} [AddCommMonoid M] (n b m : ℕ) (h : n * b = m) (a : Fin m → M) :
    (∑ t : Fin n, ∑ r : Fin b, a ⟨b * t.val + r.val, h ▸ block_lt t.isLt r.isLt⟩) = ∑ i : Fin m, a i := by
  subst h
  rw [← Fintype.sum_prod_type (f := fun p : Fin n × Fin b => a ⟨b * p.1.val + p.2.val, block_lt p.1.isLt p.2.isLt⟩)]
  refine Fintype.sum_equiv finProdFinEquiv _ _ (fun p => ?_)
  congr 1
  apply Fin.ext
  simp [finProdFinEquiv, Nat.add_comm]

/-- Block regrouping for `5` blocks of `10000`: `∑ t < 5, ∑ r < 10000, a (10000 t + r) = ∑ i < 50000, a i`. -/
theorem sum_blocks_5_10000 {M : Type*} [AddCommMonoid M] (a : Fin 50000 → M) :
    (∑ t : Fin 5, ∑ r : Fin 10000, a ⟨10000 * t.val + r.val, block_lt (n := 5) t.isLt r.isLt⟩)
      = ∑ i : Fin 50000, a i :=
  sum_blocks 5 10000 50000 rfl a

/-- Five terms added one after the other onto `0`, from the left, are their sum. -/
theorem acc5_zero {M : Type*} [AddCommMonoid M] (S : Fin 5 → M) :
    ((((0 + S 0) + S 1) + S 2) + S 3) + S 4 = ∑ t : Fin 5, S t := by
  rw [Fin.sum_univ_five, zero_add]

/-- Five terms added one after the other, from the left, are their sum. -/
theorem acc5 {M : Type*} [AddCommMonoid M] (S : Fin 5 → M) :
    (((S 0 + S 1) + S 2) + S 3) + S 4 = ∑ t : Fin 5, S t := by
  rw [Fin.sum_univ_five]

/-- The left-nested accumulation of five block sums, each block sum itself started from `0`:
    with `S t = 0 + ∑ r < 10000, a (10000 t + r)`, `(((S 0 + S 1) + S 2) + S 3) + S 4 = ∑ i < 50000, a i`. -/
theorem acc5_blocks {M : Type*} [AddCommMonoid M] (a : Fin 50000 → M) :
    ((((0 + ∑ r : Fin 10000, a ⟨10000 * (0 : Fin 5).val + r.val, block_lt (n := 5) (0 : Fin 5).isLt r.isLt⟩)
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩)
      = ∑ i : Fin 50000, a i := by
  rw [← sum_blocks_5_10000 a, Fin.sum_univ_five]
  simp only [zero_add]

/-- The same with one more `0` at the very start of the accumulation:
    `((((0 + S 0) + S 1) + S 2) + S 3) + S 4 = ∑ i < 50000, a i`. -/
theorem acc5_zero_blocks {M : Type*} [AddCommMonoid M] (a : Fin 50000 → M) :
    (((((0 + (0 + ∑ r : Fin 10000, a ⟨10000 * (0 : Fin 5).val + r.val, block_lt (n := 5) (0 : Fin 5).isLt r.isLt⟩))
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩))
      = ∑ i : Fin 50000, a i := by
  rw [zero_add]; exact acc5_blocks a

/-- The same with the block offsets as literals: the five block sums over the indices `r`, `10000 + r`,
    `20000 + r`, `30000 + r`, `40000 + r` (`r < 10000`), each started from `0` and added from the left. -/
theorem acc5_blocks_lit {M : Type*} [AddCommMonoid M] (a : Fin 50000 → M) :
    ((((0 + ∑ r : Fin 10000, a ⟨r.val, by have := r.isLt; omega⟩)
      + (0 + ∑ r : Fin 10000, a ⟨10000 + r.val, by have := r.isLt; omega⟩))
      + (0 + ∑ r : Fin 10000, a ⟨20000 + r.val, by have := r.isLt; omega⟩))
      + (0 + ∑ r : Fin 10000, a ⟨30000 + r.val, by have := r.isLt; omega⟩))
      + (0 + ∑ r : Fin 10000, a ⟨40000 + r.val, by have := r.isLt; omega⟩)
      = ∑ i : Fin 50000, a i := by
  rw [← acc5_blocks a]
  refine congrArg₂ (· + ·) (congrArg₂ (· + ·) (congrArg₂ (· + ·) (congrArg₂ (· + ·) ?_ ?_) ?_) ?_) ?_ <;>
    refine congrArg (0 + ·) (Finset.sum_congr rfl fun r _ => congrArg a (Fin.ext ?_)) <;>
    first
      | rfl
      | exact (Nat.zero_add _).symm

/-! ### (L3) A sum over `m + n` indices, split into its first `m` and its last `n` terms -/

/-- Concatenation split, in any commutative additive monoid: the sum over `N = m + n` indices is the sum over
    the first `m` plus the sum over the last `n`, the latter at the indices `m + k`. -/
theorem sum_split {M : Type*} [AddCommMonoid M] (m n N : ℕ) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- Concatenation split of `128 = 64 + 64` terms. -/
theorem sum_split_64_64 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  sum_split 64 64 128 rfl f

/-! ### (L4) Mean of squares minus squared mean = mean of squared deviations -/

/-- The sum of the squared deviations from any constant `c`:
    `∑ (x r - c)² = ∑ x r² - 2 c ∑ x r + n c²`. -/
theorem sum_sq_dev {n : ℕ} (x : Fin n → ℝ) (c : ℝ) :
    ∑ r, (x r - c) * (x r - c) = (∑ r, x r * x r) - 2 * c * (∑ r, x r) + (n : ℝ) * (c * c) := by
  have h : ∀ r, (x r - c) * (x r - c) = x r * x r - 2 * c * x r + c * c := fun r => by ring
  simp only [h, Finset.sum_add_distrib, Finset.sum_sub_distrib, ← Finset.mul_sum, Finset.sum_const,
    Finset.card_univ, Fintype.card_fin, nsmul_eq_mul]
  ring

/-- The variance identity over the reals: with `N = n > 0` and `μ = (∑ x r) / N`,
    `(∑ x r²) / N - μ² = (∑ (x r - μ)²) / N`. -/
theorem variance_real {n : ℕ} (hn : 0 < n) (x : Fin n → ℝ) :
    (∑ r, x r * x r) / (n : ℝ) - (∑ r, x r) / (n : ℝ) * ((∑ r, x r) / (n : ℝ))
      = (∑ r, (x r - (∑ r, x r) / (n : ℝ)) * (x r - (∑ r, x r) / (n : ℝ))) / (n : ℝ) := by
  have hN : (n : ℝ) ≠ 0 := Nat.cast_ne_zero.mpr hn.ne'
  rw [sum_sq_dev]
  field_simp
  ring

/-- The ideal quotient of a sum of finite extended reals, started from `0`, by a nonzero real `N` is the
    real quotient: `div (0 + ∑ ↑(f r)) ↑N = ↑((∑ f r) / N)`. -/
theorem div_sum_coe {ι : Type*} [Fintype ι] (f : ι → ℝ) {N : ℝ} (hN : N ≠ 0) :
    Ideal.div (0 + ∑ r, (f r : EReal)) (N : EReal) = (((∑ r, f r) / N : ℝ) : EReal) := by
  rw [zero_add, ← coe_sum_univ, Ideal.div_coe hN, ← EReal.coe_mul, mul_one_div]

/-- The same without the leading `0`: `div (∑ ↑(f r)) ↑N = ↑((∑ f r) / N)`. -/
theorem div_sum_coe' {ι : Type*} [Fintype ι] (f : ι → ℝ) {N : ℝ} (hN : N ≠ 0) :
    Ideal.div (∑ r, (f r : EReal)) (N : EReal) = (((∑ r, f r) / N : ℝ) : EReal) := by
  rw [← coe_sum_univ, Ideal.div_coe hN, ← EReal.coe_mul, mul_one_div]

/-- The variance identity over finite extended reals given by real witnesses, in the ideal operations:
    with `X r = ↑(x r)`, a divisor `d = ↑n`, `n > 0`, and `M = div (0 + ∑ X r) d`,
    `div (0 + ∑ X r * X r) d - M * M = div (0 + ∑ (X r - M) * (X r - M)) d`. -/
theorem variance_coe {n : ℕ} (hn : 0 < n) (x : Fin n → ℝ) (d : EReal) (hd : d = ((n : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d := by
  subst hd
  have hN : (n : ℝ) ≠ 0 := Nat.cast_ne_zero.mpr hn.ne'
  rw [div_sum_coe x hN]
  simp only [← EReal.coe_sub, ← EReal.coe_mul]
  rw [div_sum_coe _ hN, div_sum_coe _ hN, ← EReal.coe_sub, variance_real hn x]

/-- The variance identity over extended reals that are all finite (none is `⊤` or `⊥`), in the ideal
    operations: with a divisor `d = ↑n`, `n > 0`, and `M = div (0 + ∑ X r) d`,
    `div (0 + ∑ X r * X r) d - M * M = div (0 + ∑ (X r - M) * (X r - M)) d`. -/
theorem variance_ereal {n : ℕ} (hn : 0 < n) (X : Fin n → EReal) (hX : ∀ r, X r ≠ ⊤ ∧ X r ≠ ⊥)
    (d : EReal) (hd : d = ((n : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d := by
  obtain ⟨x, rfl⟩ : ∃ x : Fin n → ℝ, X = fun r => (x r : EReal) :=
    ⟨fun r => (X r).toReal, funext fun r => (EReal.coe_toReal (hX r).1 (hX r).2).symm⟩
  exact variance_coe hn x d hd

/-- The variance identity over finite extended reals given by real witnesses, the sums not started from `0`:
    with `M = div (∑ X r) d`, `div (∑ X r * X r) d - M * M = div (∑ (X r - M) * (X r - M)) d`. -/
theorem variance_coe' {n : ℕ} (hn : 0 < n) (x : Fin n → ℝ) (d : EReal) (hd : d = ((n : ℝ) : EReal)) :
    Ideal.div (∑ r, (x r : EReal) * (x r : EReal)) d
        - Ideal.div (∑ r, (x r : EReal)) d * Ideal.div (∑ r, (x r : EReal)) d
      = Ideal.div (∑ r, ((x r : EReal) - Ideal.div (∑ r, (x r : EReal)) d)
                      * ((x r : EReal) - Ideal.div (∑ r, (x r : EReal)) d)) d := by
  have h := variance_coe hn x d hd
  simpa only [zero_add] using h

/-- The variance identity over extended reals that are all finite, the sums not started from `0`. -/
theorem variance_ereal' {n : ℕ} (hn : 0 < n) (X : Fin n → EReal) (hX : ∀ r, X r ≠ ⊤ ∧ X r ≠ ⊥)
    (d : EReal) (hd : d = ((n : ℝ) : EReal)) :
    Ideal.div (∑ r, X r * X r) d - Ideal.div (∑ r, X r) d * Ideal.div (∑ r, X r) d
      = Ideal.div (∑ r, (X r - Ideal.div (∑ r, X r) d) * (X r - Ideal.div (∑ r, X r) d)) d := by
  have h := variance_ereal hn X hX d hd
  simpa only [zero_add] using h

/-- The natural number `50000` as a real is the real literal `50000`. -/
theorem cast_50000 : ((50000 : ℕ) : ℝ) = (50000 : ℝ) := by norm_num

/-- The variance identity for `50000` finite extended reals given by real witnesses, divisor `d = ↑50000`. -/
theorem variance_coe_50000 (x : Fin 50000 → ℝ) (d : EReal) (hd : d = ((50000 : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d :=
  variance_coe (n := 50000) (by norm_num) x d (by rw [hd, cast_50000])

/-- The variance identity for `50000` extended reals that are all finite, divisor `d = ↑50000`. -/
theorem variance_ereal_50000 (X : Fin 50000 → EReal) (hX : ∀ r, X r ≠ ⊤ ∧ X r ≠ ⊥)
    (d : EReal) (hd : d = ((50000 : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d :=
  variance_ereal (n := 50000) (by norm_num) X hX d (by rw [hd, cast_50000])

/-! ### (L5) The literals -/

/-- The binary32 pattern `0x47435000` (sign `+`, exponent `142 - 127 = 15`, significand `1.52587890625`)
    denotes the real `50000`. -/
theorem ofBits_50000 : Ideal.ofBits .f32 0x47435000#32 = ((50000 : ℝ) : EReal) := by
  simp [Ideal.ofBits, Ideal.ieee, -EReal.coe_mul]; norm_num

/-- The binary32 pattern `0x00000000` (`+0.0`) denotes `0`. -/
theorem ofBits_zero : Ideal.ofBits .f32 0x00000000#32 = 0 := by
  simp [Ideal.ofBits, Ideal.ieee]

/-- An integer converted to an ideal float is that integer, read signed, as an extended real. -/
theorem sitofp_def {φ : FTy} {w : ℕ} (b : BitVec w) :
    FloatOps.sitofp (F := Ideal) φ b = ((b.toInt : ℝ) : EReal) := rfl

/-- The 32-bit integer `0` converted to an ideal float is `0`. -/
theorem sitofp_zero_i32 {φ : FTy} : FloatOps.sitofp (F := Ideal) φ (0#32) = 0 := by
  rw [sitofp_def]; simp

end Cert.LibStats

end
-- ==== Proof.Regroup.lean ====
/-
  The 32768 rows as 2 groups of 16 blocks of 1024 rows: row 1024 (16 p + k) + r is row r of block k of
  group p.  A sum over all rows is the sum over groups, blocks and rows within a block, in any commutative
  additive monoid; the number of negative labels counted block by block as 1024 less the positive ones is,
  on binary labels, the number of negative labels.
-/
import proofs.«169377_j29618094474146_2_alg».proof.Proof.LibStats
import proofs.«169377_j29618094474146_2_alg».proof.Proof.Terms

noncomputable section

namespace Cert.Stats

open Idealize.ShloMosaic Cert.LibStats
open scoped BigOperators

theorem row_lt (p : Fin 2) (k : Fin 16) (r : Fin 1024) : 1024 * (16 * p.val + k.val) + r.val < 32768 := by
  have := p.isLt; have := k.isLt; have := r.isLt; omega

/-- Row `r` of block `k` of group `p`. -/
abbrev row (p : Fin 2) (k : Fin 16) (r : Fin 1024) : Fin 32768 := ⟨1024 * (16 * p.val + k.val) + r.val, row_lt p k r⟩

/-- A sum over the rows, regrouped by group, block and row within the block. -/
theorem regroup {M : Type*} [AddCommMonoid M] (f : Fin 32768 → M) :
    ∑ p : Fin 2, ∑ k : Fin 16, ∑ r : Fin 1024, f (row p k r) = ∑ n : Fin 32768, f n :=
  (sum_blocks 2 16 32 rfl (fun t : Fin 32 => ∑ r : Fin 1024, f ⟨1024 * t.val + r.val, block_lt (n := 32) t.isLt r.isLt⟩)).trans
    (sum_blocks 32 1024 32768 rfl f)

/-- The same with every partial sum started from zero, as the programs accumulate. -/
theorem regroup_zero {M : Type*} [AddCommMonoid M] (f : Fin 32768 → M) :
    (0 : M) + ∑ p : Fin 2, ((0 : M) + ∑ k : Fin 16, ∑ r : Fin 1024, f (row p k r)) = 0 + ∑ n : Fin 32768, f n := by
  simp only [zero_add]
  exact regroup f

/-- Counting negatives block by block as 1024 less the positives: on indicators that add to one, it is
    the count of the negatives. -/
theorem count_neg (a b : Fin 32768 → ℝ) (hab : ∀ n, b n = 1 - a n) :
    ∑ p : Fin 2, ∑ k : Fin 16, ((1024 : ℝ) - ∑ r : Fin 1024, a (row p k r)) = ∑ n : Fin 32768, b n := by
  rw [← regroup b]
  refine Finset.sum_congr rfl fun p _ => Finset.sum_congr rfl fun k _ => ?_
  simp only [hab, Finset.sum_sub_distrib, Finset.sum_const, Finset.card_univ, Fintype.card_fin, nsmul_eq_mul, mul_one]
  norm_num

/-- The float literal `1024.0`. -/
theorem ofBits_1024 : Ideal.ofBits .f32 0x44800000#32 = ((1024 : ℝ) : EReal) := by
  simp [Ideal.ofBits, Ideal.ieee, -EReal.coe_mul]; norm_num

end Cert.Stats

end
-- ==== Proof.KernelCols.lean ====
/-
  The kernel program's four column statistics, read at a column in terms of the argument arrays.  Step t
  of the grid reads rows 1024 t … 1024 t + 1023 of the scores and the labels; the two cores' partial blocks
  are added by the host; so each statistic is zero plus, over the two groups, zero plus the sixteen steps'
  sums over their 1024 rows.
-/
import proofs.«169377_j29618094474146_2_alg».proof.Proof.KernelRun
import proofs.«169377_j29618094474146_2_alg».proof.Proof.Regroup
import Idealize.ShloMosaic.PureOps.Ideal.Laws
import Idealize.ShloMosaic.Lib.Pipeline.Value
import Idealize.ShloMosaic.Lib.ValueLayout

noncomputable section

open Idealize.ShloMosaic Idealize.ShloMosaic.TcCoe Idealize.SL.Sem
open Idealize.ShloMosaic.Pipeline (Dat)

namespace Cert.KernelIdeal.Cols

open Cert.KernelIdeal Cert.KernelIdeal.Gen Cert.KernelIdeal.Acc Cert.KernelIdeal.Pay Cert.KernelIdeal.Run
open Idealize.ShloMosaic.ValueIdx Cert.Stats
open scoped BigOperators

variable (m : (ℓ : Loc nD τ sig) → Buf (Elt Ideal) ℓ)

/-- The input windows' block index at step `t`: block `t` of the rows, the one block of the columns. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Step `t`'s block of scores at (r, j) is the scores at row 1024 t + r, column j. -/
theorem iblk0_apply (c : Dev nD) (t : Fin cfg0.N) (r : Fin 1024) (j : Fin 1000) (hlt : 1024 * t.val + r.val < 32768) :
    (iblk m c 0 t : Vec Ideal S1024x1000 .f32) (ix2 r j)
      = m ((c.tc : Thread nD τ).loc main_arg0) (ix2 (⟨1024 * t.val + r.val, hlt⟩ : Fin 32768) j) := by
  obtain ⟨e0, e1, -, -⟩ := idx_in t
  unfold iblk
  rw [View.read_apply]
  show V m c main_arg0 _ = m ((c.tc : Thread nD τ).loc main_arg0) _
  unfold V
  refine congrArg (m ((c.tc : Thread nD τ).loc main_arg0)) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 1000 + 1 * j.val = j.val; rw [e1]; omega

/-- Step `t`'s block of labels at (r, j) is the labels at row 1024 t + r, column j. -/
theorem iblk1_apply (c : Dev nD) (t : Fin cfg0.N) (r : Fin 1024) (j : Fin 1000) (hlt : 1024 * t.val + r.val < 32768) :
    (iblk m c 1 t : Vec Ideal S1024x1000 .i32) (ix2 r j)
      = m ((c.tc : Thread nD τ).loc main_arg1) (ix2 (⟨1024 * t.val + r.val, hlt⟩ : Fin 32768) j) := by
  obtain ⟨-, -, e0, e1⟩ := idx_in t
  unfold iblk
  rw [View.read_apply]
  show V m c main_arg1 _ = m ((c.tc : Thread nD τ).loc main_arg1) _
  unfold V
  refine congrArg (m ((c.tc : Thread nD τ).loc main_arg1)) (funext fun a => Fin.ext ?_)
  match a with
  | ⟨0, _⟩ => show win0_1.index t (0 : Fin 2) * 1024 + 1 * r.val = 1024 * t.val + r.val; rw [e0]; omega
  | ⟨1, _⟩ => show win0_1.index t (1 : Fin 2) * 1000 + 1 * j.val = j.val; rw [e1]; omega

/-- The two cores' partial blocks added, at (q, j). -/
theorem total_apply (G : FVec Ideal S2x4x1000 .f32) (q : Fin 4) (j : Fin 1000) :
    total G (ix2 q j) = z + ∑ p : Fin 2, G (ix3 p q j) := by
  unfold total
  simp only [Host.reduceAdd, Ideal.hostReduceAdd_def]
  rw [Ideal.hostReduceAdd_single reducesTo_S2x4x1000_S4x1000_d0 (by decide)]
  refine congrArg (z + ·) (Finset.sum_congr rfl fun p _ => ?_)
  exact congrArg G (funext fun a => Fin.ext (by match a with | ⟨0, _⟩ => rfl | ⟨1, _⟩ => rfl | ⟨2, _⟩ => rfl))

theorem col0_apply (G : FVec Ideal S2x4x1000 .f32) (j : Fin 1000) : col0 G (ix1 j) = z + ∑ p : Fin 2, G (ix3 p (0 : Fin 4) j) := by
  unfold col0
  refine (shapeCast_1a_a_apply _ _ j).trans ?_
  refine (extractStridedSlice_apply _ _ _ _ (ix2 (0 : Fin 4) j)
    (fun a => by match a with | ⟨0, _⟩ => rfl | ⟨1, _⟩ => exact (Nat.zero_add _).symm)).trans ?_
  exact total_apply G 0 j
theorem col1_apply (G : FVec Ideal S2x4x1000 .f32) (j : Fin 1000) : col1 G (ix1 j) = z + ∑ p : Fin 2, G (ix3 p (1 : Fin 4) j) := by
  unfold col1
  refine (shapeCast_1a_a_apply _ _ j).trans ?_
  refine (extractStridedSlice_apply _ _ _ _ (ix2 (1 : Fin 4) j)
    (fun a => by match a with | ⟨0, _⟩ => rfl | ⟨1, _⟩ => exact (Nat.zero_add _).symm)).trans ?_
  exact total_apply G 1 j
theorem col2_apply (G : FVec Ideal S2x4x1000 .f32) (j : Fin 1000) : col2 G (ix1 j) = z + ∑ p : Fin 2, G (ix3 p (2 : Fin 4) j) := by
  unfold col2
  refine (shapeCast_1a_a_apply _ _ j).trans ?_
  refine (extractStridedSlice_apply _ _ _ _ (ix2 (2 : Fin 4) j)
    (fun a => by match a with | ⟨0, _⟩ => rfl | ⟨1, _⟩ => exact (Nat.zero_add _).symm)).trans ?_
  exact total_apply G 2 j
theorem col3_apply (G : FVec Ideal S2x4x1000 .f32) (j : Fin 1000) : col3 G (ix1 j) = z + ∑ p : Fin 2, G (ix3 p (3 : Fin 4) j) := by
  unfold col3
  refine (shapeCast_1a_a_apply _ _ j).trans ?_
  refine (extractStridedSlice_apply _ _ _ _ (ix2 (3 : Fin 4) j)
    (fun a => by match a with | ⟨0, _⟩ => rfl | ⟨1, _⟩ => exact (Nat.zero_add _).symm)).trans ?_
  exact total_apply G 3 j

theorem step_lt (p : Fin 2) (k : Fin 16) : 16 * p.val + k.val < cfg0.N := by
  have hN : cfg0.N = 32 := N_0
  have := p.isLt; have := k.isLt; omega

/-- The four statistics of step 16 p + k at column `j`, over the argument arrays' rows. -/
theorem stat_row0 (c : Dev nD) (p : Fin 2) (k : Fin 16) (j : Fin 1000) :
    stat m c (16 * p.val + k.val) (0 : Fin 4).val j.val
      = ∑ r : Fin 1024, T0 (m ((c.tc : Thread nD τ).loc main_arg0) (ix2 (row p k r) j))
          (m ((c.tc : Thread nD τ).loc main_arg1) (ix2 (row p k r) j)) := by
  rw [stat_eq m c _ (step_lt p k) 0 j, pay3_row0]
  exact Finset.sum_congr rfl fun r _ =>
    congrArg₂ T0 (iblk0_apply m c ⟨_, step_lt p k⟩ r j (row_lt p k r)) (iblk1_apply m c ⟨_, step_lt p k⟩ r j (row_lt p k r))

theorem stat_row1 (c : Dev nD) (p : Fin 2) (k : Fin 16) (j : Fin 1000) :
    stat m c (16 * p.val + k.val) (1 : Fin 4).val j.val
      = ∑ r : Fin 1024, T1 (m ((c.tc : Thread nD τ).loc main_arg0) (ix2 (row p k r) j))
          (m ((c.tc : Thread nD τ).loc main_arg1) (ix2 (row p k r) j)) := by
  rw [stat_eq m c _ (step_lt p k) 1 j, pay3_row1]
  exact Finset.sum_congr rfl fun r _ =>
    congrArg₂ T1 (iblk0_apply m c ⟨_, step_lt p k⟩ r j (row_lt p k r)) (iblk1_apply m c ⟨_, step_lt p k⟩ r j (row_lt p k r))

theorem stat_row2 (c : Dev nD) (p : Fin 2) (k : Fin 16) (j : Fin 1000) :
    stat m c (16 * p.val + k.val) (2 : Fin 4).val j.val
      = ∑ r : Fin 1024, T2 (m ((c.tc : Thread nD τ).loc main_arg1) (ix2 (row p k r) j)) := by
  rw [stat_eq m c _ (step_lt p k) 2 j, pay3_row2]
  exact Finset.sum_congr rfl fun r _ => congrArg T2 (iblk1_apply m c ⟨_, step_lt p k⟩ r j (row_lt p k r))

theorem stat_row3 (c : Dev nD) (p : Fin 2) (k : Fin 16) (j : Fin 1000) :
    stat m c (16 * p.val + k.val) (3 : Fin 4).val j.val
      = Ideal.ofBits .f32 0x44800000#32 - ∑ r : Fin 1024, T2 (m ((c.tc : Thread nD τ).loc main_arg1) (ix2 (row p k r) j)) := by
  rw [stat_eq m c _ (step_lt p k) 3 j, pay3_row3]
  refine congrArg (Ideal.ofBits .f32 0x44800000#32 - ·) ?_
  exact Finset.sum_congr rfl fun r _ => congrArg T2 (iblk1_apply m c ⟨_, step_lt p k⟩ r j (row_lt p k r))

/-- Entry (p, q, j) of the grid's result array. -/
theorem Gfin_apply (c : Dev nD) (p : Fin 2) (q : Fin 4) (j : Fin 1000) :
    Gfin m c (ix3 p q j) = z + ∑ k : Fin 16, stat m c (16 * p.val + k.val) q.val j.val := rfl

/-- The kernel program's column statistics over the argument arrays. -/
theorem kcol0 (c : Dev nD) (j : Fin 1000) :
    col0 (Gfin m c) (ix1 j) = z + ∑ p : Fin 2, (z + ∑ k : Fin 16, ∑ r : Fin 1024,
      T0 (m ((c.tc : Thread nD τ).loc main_arg0) (ix2 (row p k r) j)) (m ((c.tc : Thread nD τ).loc main_arg1) (ix2 (row p k r) j))) := by
  rw [col0_apply]
  refine congrArg (z + ·) (Finset.sum_congr rfl fun p _ => ?_)
  rw [Gfin_apply]
  exact congrArg (z + ·) (Finset.sum_congr rfl fun k _ => stat_row0 m c p k j)

theorem kcol1 (c : Dev nD) (j : Fin 1000) :
    col1 (Gfin m c) (ix1 j) = z + ∑ p : Fin 2, (z + ∑ k : Fin 16, ∑ r : Fin 1024,
      T1 (m ((c.tc : Thread nD τ).loc main_arg0) (ix2 (row p k r) j)) (m ((c.tc : Thread nD τ).loc main_arg1) (ix2 (row p k r) j))) := by
  rw [col1_apply]
  refine congrArg (z + ·) (Finset.sum_congr rfl fun p _ => ?_)
  rw [Gfin_apply]
  exact congrArg (z + ·) (Finset.sum_congr rfl fun k _ => stat_row1 m c p k j)

theorem kcol2 (c : Dev nD) (j : Fin 1000) :
    col2 (Gfin m c) (ix1 j) = z + ∑ p : Fin 2, (z + ∑ k : Fin 16, ∑ r : Fin 1024,
      T2 (m ((c.tc : Thread nD τ).loc main_arg1) (ix2 (row p k r) j))) := by
  rw [col2_apply]
  refine congrArg (z + ·) (Finset.sum_congr rfl fun p _ => ?_)
  rw [Gfin_apply]
  exact congrArg (z + ·) (Finset.sum_congr rfl fun k _ => stat_row2 m c p k j)

theorem kcol3 (c : Dev nD) (j : Fin 1000) :
    col3 (Gfin m c) (ix1 j) = z + ∑ p : Fin 2, (z + ∑ k : Fin 16,
      (Ideal.ofBits .f32 0x44800000#32 - ∑ r : Fin 1024, T2 (m ((c.tc : Thread nD τ).loc main_arg1) (ix2 (row p k r) j)))) := by
  rw [col3_apply]
  refine congrArg (z + ·) (Finset.sum_congr rfl fun p _ => ?_)
  rw [Gfin_apply]
  exact congrArg (z + ·) (Finset.sum_congr rfl fun k _ => stat_row3 m c p k j)

end Cert.KernelIdeal.Cols

end
-- ==== Proof.LibBitCount.lean ====
/-
  General lemma: counting with 32-bit words (a host `sum` of a boolean mask converted to int32).  A sum of
  one-bit words, each widened to 32 bits and added with wrap-around from zero, is the 32-bit word of the
  number of set bits (`fold_addi_eq`); when fewer than 2^31 words are added, read as a signed integer and
  then as a real it is the sum of the 0/1 indicators (`count_toInt`).  Imports only the library and Mathlib.
-/
import Idealize.ShloMosaic.PureOps.Reduce
import Mathlib.Data.Real.Basic
import Mathlib.Algebra.BigOperators.Fin
import Mathlib.Algebra.Order.BigOperators.Group.Finset

noncomputable section

namespace Cert.Stats

open Idealize.ShloMosaic
open scoped BigOperators

/-- The wrap-around sum of widened one-bit words is the 32-bit word of the number of set bits. -/
theorem fold_addi_eq {ι : Type} (s : Finset ι) (g : ι → BitVec 1) :
    s.fold IntOp.addi 0#32 (fun k => (g k).setWidth 32) = BitVec.ofNat 32 (∑ k ∈ s, (g k).toNat) := by
  classical
  induction s using Finset.induction_on with
  | empty => rfl
  | insert a s ha ih =>
    rw [Finset.fold_insert ha, ih, Finset.sum_insert ha, BitVec.ofNat_add]
    unfold IntOp.addi
    refine congrArg (· + _) ?_
    rcases BitVec.eq_zero_or_eq_one (g a) with h | h <;> rw [h] <;> rfl

/-- Fewer than 2^31 one-bit words: the wrap-around count, read signed and as a real, is the sum of the indicators. -/
theorem count_toInt {n : ℕ} (hn : n < 2 ^ 31) (g : Fin n → BitVec 1) :
    (((Finset.univ.fold IntOp.addi 0#32 (fun k => (g k).setWidth 32)).toInt : ℤ) : ℝ)
      = ∑ k : Fin n, (if g k = 1#1 then (1 : ℝ) else 0) := by
  rw [fold_addi_eq]
  have hb : ∑ k : Fin n, (g k).toNat ≤ n := by
    calc ∑ k : Fin n, (g k).toNat ≤ ∑ _k : Fin n, 1 :=
          Finset.sum_le_sum (fun k _ => by have := (g k).isLt; omega)
      _ = n := by simp
  have h1 : (BitVec.ofNat 32 (∑ k : Fin n, (g k).toNat)).toInt = ((∑ k : Fin n, (g k).toNat : ℕ) : ℤ) := by
    rw [BitVec.toInt_eq_toNat_cond, BitVec.toNat_ofNat]
    have h2 : (∑ k : Fin n, (g k).toNat) % 2 ^ 32 = ∑ k : Fin n, (g k).toNat := Nat.mod_eq_of_lt (by omega)
    rw [h2, if_pos (by omega)]
  rw [h1]
  push_cast
  refine Finset.sum_congr rfl fun k _ => ?_
  rcases BitVec.eq_zero_or_eq_one (g k) with h | h <;> rw [h] <;> simp

end Cert.Stats

end
-- ==== Proof.RefSide.lean ====
/-
  The reference's four column statistics, read at a column.  The reference reduces whole 32768 × 1000
  arrays down their rows: the positive-class loss softplus (-x) where the label is 1, the negative-class loss
  softplus x where the label is 0, and the two label counts, summed as 32-bit integers and then converted.
  Its result is the shared function of these four vectors.
-/
import proofs.«169377_j29618094474146_2_alg».proof.Proof.RefRunP
import proofs.«169377_j29618094474146_2_alg».proof.Proof.Tail
import proofs.«169377_j29618094474146_2_alg».proof.Proof.LibBitCount
import proofs.«169377_j29618094474146_2_alg».proof.Proof.Terms
import Idealize.ShloMosaic.Lib.ValueIdx
import Idealize.ShloMosaic.PureOps.Ideal.Laws

noncomputable section

namespace Cert.ReferenceIdeal.Cols

open Cert.ReferenceIdeal Cert.ReferenceIdeal.Gen Idealize.ShloMosaic Idealize.ShloMosaic.TcCoe Idealize.SL.Sem
open Idealize.ShloMosaic.ValueIdx Cert.Stats
open scoped BigOperators

variable (x0 : FVec Ideal S32768x1000 .f32) (x1 : IVec S32768x1000 32)

/-- The positive-class loss summed down each column. -/
def spRef : FVec Ideal S1000 .f32 :=
  (Host.reduceAdd (select (cmpi .eq x1 (broadcastInDim S32768x1000 ![] bcast_S_S32768x1000 (constantI S_ 32 1#32))) (select (cmpf .une (subf (Host.negf x0) (broadcastInDim S32768x1000 ![] bcast_S_S32768x1000 (constant S_ .f32 0x00000000#32))) (subf (Host.negf x0) (broadcastInDim S32768x1000 ![] bcast_S_S32768x1000 (constant S_ .f32 0x00000000#32)))) (addf (Host.negf x0) (broadcastInDim S32768x1000 ![] bcast_S_S32768x1000 (constant S_ .f32 0x00000000#32))) (addf (maximumf (Host.negf x0) (broadcastInDim S32768x1000 ![] bcast_S_S32768x1000 (constant S_ .f32 0x00000000#32))) (Host.log1p (Host.exp (Host.negf (Host.absf (subf (Host.negf x0) (broadcastInDim S32768x1000 ![] bcast_S_S32768x1000 (constant S_ .f32 0x00000000#32))))))))) (broadcastInDim S32768x1000 ![] bcast_S_S32768x1000 (id (constant S_ .f32 0x00000000#32)))) (constant S_ .f32 0x00000000#32) reducesTo_S32768x1000_S1000_d0 h_S_)

/-- The negative-class loss summed down each column. -/
def snRef : FVec Ideal S1000 .f32 :=
  (Host.reduceAdd (select (cmpi .eq x1 (broadcastInDim S32768x1000 ![] bcast_S_S32768x1000 (constantI S_ 32 0#32))) (select (cmpf .une (subf x0 (broadcastInDim S32768x1000 ![] bcast_S_S32768x1000 (constant S_ .f32 0x00000000#32))) (subf x0 (broadcastInDim S32768x1000 ![] bcast_S_S32768x1000 (constant S_ .f32 0x00000000#32)))) (addf x0 (broadcastInDim S32768x1000 ![] bcast_S_S32768x1000 (constant S_ .f32 0x00000000#32))) (addf (maximumf x0 (broadcastInDim S32768x1000 ![] bcast_S_S32768x1000 (constant S_ .f32 0x00000000#32))) (Host.log1p (Host.exp (Host.negf (Host.absf (subf x0 (broadcastInDim S32768x1000 ![] bcast_S_S32768x1000 (constant S_ .f32 0x00000000#32))))))))) (broadcastInDim S32768x1000 ![] bcast_S_S32768x1000 (id (constant S_ .f32 0x00000000#32)))) (constant S_ .f32 0x00000000#32) reducesTo_S32768x1000_S1000_d0 h_S_)

/-- The number of positive labels in each column. -/
def npRef : FVec Ideal S1000 .f32 :=
  (sitofp .f32 (Host.reduce IntOp.addi (extui 32 (cmpi .eq x1 (broadcastInDim S32768x1000 ![] bcast_S_S32768x1000 (constantI S_ 32 1#32))) natLt_1_32) (constantI S_ 32 0#32) reducesTo_S32768x1000_S1000_d0 h_S_))

/-- The number of negative labels in each column. -/
def nnRef : FVec Ideal S1000 .f32 :=
  (sitofp .f32 (Host.reduce IntOp.addi (extui 32 (cmpi .eq x1 (broadcastInDim S32768x1000 ![] bcast_S_S32768x1000 (constantI S_ 32 0#32))) natLt_1_32) (constantI S_ 32 0#32) reducesTo_S32768x1000_S1000_d0 h_S_))

/-- The reference's result is the shared function of its four column statistics. -/
theorem res_eq (m : (ℓ : Loc nD τ sig) → Buf (Elt Ideal) ℓ) (c : Dev nD) :
    Cert.ReferenceIdeal.ValueP.res_main_v35 (F := Ideal) m c
      = Stats.tail bcast_S_S1000 reducesTo_S1000_S_d0 h_S_ natLt_1_32
          (spRef (m ((c.tc : Thread nD τ).loc main_arg0)) (m ((c.tc : Thread nD τ).loc main_arg1)))
          (snRef (m ((c.tc : Thread nD τ).loc main_arg0)) (m ((c.tc : Thread nD τ).loc main_arg1)))
          (npRef (m ((c.tc : Thread nD τ).loc main_arg1)))
          (nnRef (m ((c.tc : Thread nD τ).loc main_arg1))) := by
  unfold Cert.ReferenceIdeal.ValueP.res_main_v35
  rfl

/-- A host sum down the rows, at column `j`. -/
theorem hsum_col (y : FVec Ideal S32768x1000 .f32) (init : FVec Ideal S_ .f32) (j : Fin 1000) :
    Host.reduceAdd (F := Ideal) y init reducesTo_S32768x1000_S1000_d0 h_S_ (ix1 j)
      = init (Shape.Idx.first h_S_) + ∑ k : Fin 32768, y (ix2 k j) := by
  simp only [Host.reduceAdd, Ideal.hostReduceAdd_def]
  rw [Ideal.hostReduceAdd_single reducesTo_S32768x1000_S1000_d0 (by decide)]
  refine congrArg (_ + ·) (Finset.sum_congr rfl fun k _ => ?_)
  exact congrArg y (funext fun a => Fin.ext (by match a with | ⟨0, _⟩ => rfl | ⟨1, _⟩ => rfl))

theorem spRef_apply (j : Fin 1000) :
    spRef x0 x1 (ix1 j) = z + ∑ k : Fin 32768, R0 (x0 (ix2 k j)) (x1 (ix2 k j)) := by
  unfold spRef
  refine (hsum_col _ _ j).trans ?_
  rfl

theorem snRef_apply (j : Fin 1000) :
    snRef x0 x1 (ix1 j) = z + ∑ k : Fin 32768, R1 (x0 (ix2 k j)) (x1 (ix2 k j)) := by
  unfold snRef
  refine (hsum_col _ _ j).trans ?_
  rfl

/-- A host count down the rows of one-bit words, at column `j`: the sum of the indicators. -/
theorem hcount_col (b : IVec S32768x1000 1) (j : Fin 1000) :
    sitofp (F := Ideal) .f32 (Host.reduce IntOp.addi (extui 32 b natLt_1_32) (constantI S_ 32 0#32)
        reducesTo_S32768x1000_S1000_d0 h_S_) (ix1 j)
      = ((∑ k : Fin 32768, (if b (ix2 k j) = 1#1 then (1 : ℝ) else 0) : ℝ) : EReal) := by
  show (((Host.reduce IntOp.addi (extui 32 b natLt_1_32) (constantI S_ 32 0#32)
        reducesTo_S32768x1000_S1000_d0 h_S_ (ix1 j)).toInt : ℝ) : EReal) = _
  rw [Host.reduce_eq_fold_single IntOp.addi _ _ reducesTo_S32768x1000_S1000_d0 (by decide) h_S_ (ix1 j)]
  refine congrArg (fun r : ℝ => (r : EReal)) ?_
  refine Eq.trans ?_ (count_toInt (n := 32768) (by norm_num) (fun k => b (ix2 k j)))
  refine congrArg (fun w : BitVec 32 => ((w.toInt : ℤ) : ℝ)) ?_
  refine congrArg (Finset.univ.fold IntOp.addi 0#32) ?_
  funext k
  show (b _).setWidth 32 = (b (ix2 k j)).setWidth 32
  exact congrArg (fun i => (b i).setWidth 32) (funext fun a => Fin.ext (by match a with | ⟨0, _⟩ => rfl | ⟨1, _⟩ => rfl))

theorem npRef_apply (j : Fin 1000) :
    npRef x1 (ix1 j) = ((∑ k : Fin 32768, ind (x1 (ix2 k j)) : ℝ) : EReal) := by
  unfold npRef
  exact hcount_col _ j

theorem nnRef_apply (j : Fin 1000) :
    nnRef x1 (ix1 j) = ((∑ k : Fin 32768, indN (x1 (ix2 k j)) : ℝ) : EReal) := by
  unfold nnRef
  exact hcount_col _ j

end Cert.ReferenceIdeal.Cols

end
-- ==== Proof.Bridge.lean ====
/-
  The two programs' column statistics are the same vectors.  The kernel adds rows block by block and core
  by core, the reference in one sum; addition on the extended reals is commutative and associative, so the
  groupings agree without any finiteness.  The positive-class summands are equal outright.  The negative-class
  summands are equal by the reflection x + softplus (-x) = softplus x, which needs the score finite, and
  because a label that is 0 or 1 is negative exactly when it is not positive.  The kernel's count of the
  negatives, 1024 per block less the positives, is the reference's count for the same reason.
-/
import proofs.«169377_j29618094474146_2_alg».proof.Proof.Regroup
import Idealize.ShloMosaic.Lib.ValueIdx

noncomputable section

open Idealize.ShloMosaic

namespace Cert.Bridge

open Idealize.ShloMosaic.ValueIdx Cert.Stats Cert.LibStats
open scoped BigOperators

abbrev A : Shape := ⟨2, ![32768, 1000]⟩

variable (x0 : A.Idx → EReal) (x1 : A.Idx → BitVec 32)

theorem sp_bridge (j : Fin 1000) :
    z + ∑ p : Fin 2, (z + ∑ k : Fin 16, ∑ r : Fin 1024, T0 (x0 (ix2 (row p k r) j)) (x1 (ix2 (row p k r) j)))
      = z + ∑ n : Fin 32768, R0 (x0 (ix2 n j)) (x1 (ix2 n j)) := by
  simp only [T0_eq]
  rw [z_eq]
  exact regroup_zero (fun n => R0 (x0 (ix2 n j)) (x1 (ix2 n j)))

theorem sn_bridge (hfin : ∀ i, ∃ r : ℝ, x0 i = (r : EReal)) (hbin : ∀ i, x1 i = 0#32 ∨ x1 i = 1#32) (j : Fin 1000) :
    z + ∑ p : Fin 2, (z + ∑ k : Fin 16, ∑ r : Fin 1024, T1 (x0 (ix2 (row p k r) j)) (x1 (ix2 (row p k r) j)))
      = z + ∑ n : Fin 32768, R1 (x0 (ix2 n j)) (x1 (ix2 n j)) := by
  have h : ∀ i, T1 (x0 i) (x1 i) = R1 (x0 i) (x1 i) := fun i => by
    obtain ⟨r, hr⟩ := hfin i
    rw [hr]
    exact T1_eq r _ (hbin i)
  simp only [h]
  rw [z_eq]
  exact regroup_zero (fun n => R1 (x0 (ix2 n j)) (x1 (ix2 n j)))

theorem np_bridge (j : Fin 1000) :
    z + ∑ p : Fin 2, (z + ∑ k : Fin 16, ∑ r : Fin 1024, T2 (x1 (ix2 (row p k r) j)))
      = ((∑ n : Fin 32768, ind (x1 (ix2 n j)) : ℝ) : EReal) := by
  rw [z_eq, regroup_zero (fun n => T2 (x1 (ix2 n j))), zero_add]
  simp only [T2_eq]
  exact (coe_sum_univ _).symm

theorem nn_bridge (hbin : ∀ i, x1 i = 0#32 ∨ x1 i = 1#32) (j : Fin 1000) :
    z + ∑ p : Fin 2, (z + ∑ k : Fin 16,
        (Ideal.ofBits .f32 0x44800000#32 - ∑ r : Fin 1024, T2 (x1 (ix2 (row p k r) j))))
      = ((∑ n : Fin 32768, indN (x1 (ix2 n j)) : ℝ) : EReal) := by
  have h1 : ∀ (p : Fin 2) (k : Fin 16),
      Ideal.ofBits .f32 0x44800000#32 - ∑ r : Fin 1024, T2 (x1 (ix2 (row p k r) j))
        = (((1024 : ℝ) - ∑ r : Fin 1024, ind (x1 (ix2 (row p k r) j)) : ℝ) : EReal) := fun p k => by
    simp only [T2_eq, ofBits_1024]
    rw [← coe_sum_univ, ← EReal.coe_sub]
  simp only [h1, z_eq, zero_add]
  rw [← count_neg (fun n => ind (x1 (ix2 n j))) (fun n => indN (x1 (ix2 n j))) (fun n => indN_eq _ (hbin _)), coe_sum_univ]
  refine Finset.sum_congr rfl fun p _ => ?_
  rw [coe_sum_univ]

end Cert.Bridge

end
-- ==== Proof.Columns.lean ====
/-
  The four column statistics of the kernel program and of the reference are the same vectors, for scores
  that are all real numbers and labels that are all 0 or 1.
-/
import proofs.«169377_j29618094474146_2_alg».proof.Proof.KernelCols
import proofs.«169377_j29618094474146_2_alg».proof.Proof.RefSide
import proofs.«169377_j29618094474146_2_alg».proof.Proof.Bridge

noncomputable section

open Idealize.ShloMosaic Idealize.ShloMosaic.TcCoe Idealize.SL.Sem

namespace Cert.Columns

open Idealize.ShloMosaic.ValueIdx Cert.Stats
open Cert.KernelIdeal (nD τ sig main_arg0 main_arg1)
open Cert.KernelIdeal.Acc (Gfin)

variable (m : (ℓ : Loc nD τ sig) → Buf (Elt Ideal) ℓ) (c : Dev nD)

theorem col0_eq :
    Cert.KernelIdeal.Run.col0 (Gfin m c)
      = Cert.ReferenceIdeal.Cols.spRef (m ((c.tc : Thread nD τ).loc main_arg0)) (m ((c.tc : Thread nD τ).loc main_arg1)) := by
  funext i
  obtain ⟨j, rfl⟩ : ∃ j : Fin 1000, i = ix1 j := ⟨i 0, eq_ix1 i⟩
  rw [Cert.KernelIdeal.Cols.kcol0, Cert.ReferenceIdeal.Cols.spRef_apply]
  exact Cert.Bridge.sp_bridge _ _ j

theorem col1_eq (hfin : ∀ i, ∃ r : ℝ, m ((c.tc : Thread nD τ).loc main_arg0) i = (r : EReal))
    (hbin : ∀ i, m ((c.tc : Thread nD τ).loc main_arg1) i = 0#32 ∨ m ((c.tc : Thread nD τ).loc main_arg1) i = 1#32) :
    Cert.KernelIdeal.Run.col1 (Gfin m c)
      = Cert.ReferenceIdeal.Cols.snRef (m ((c.tc : Thread nD τ).loc main_arg0)) (m ((c.tc : Thread nD τ).loc main_arg1)) := by
  funext i
  obtain ⟨j, rfl⟩ : ∃ j : Fin 1000, i = ix1 j := ⟨i 0, eq_ix1 i⟩
  rw [Cert.KernelIdeal.Cols.kcol1, Cert.ReferenceIdeal.Cols.snRef_apply]
  exact Cert.Bridge.sn_bridge _ _ hfin hbin j

theorem col2_eq :
    Cert.KernelIdeal.Run.col2 (Gfin m c) = Cert.ReferenceIdeal.Cols.npRef (m ((c.tc : Thread nD τ).loc main_arg1)) := by
  funext i
  obtain ⟨j, rfl⟩ : ∃ j : Fin 1000, i = ix1 j := ⟨i 0, eq_ix1 i⟩
  rw [Cert.KernelIdeal.Cols.kcol2, Cert.ReferenceIdeal.Cols.npRef_apply]
  exact Cert.Bridge.np_bridge _ j

theorem col3_eq
    (hbin : ∀ i, m ((c.tc : Thread nD τ).loc main_arg1) i = 0#32 ∨ m ((c.tc : Thread nD τ).loc main_arg1) i = 1#32) :
    Cert.KernelIdeal.Run.col3 (Gfin m c) = Cert.ReferenceIdeal.Cols.nnRef (m ((c.tc : Thread nD τ).loc main_arg1)) := by
  funext i
  obtain ⟨j, rfl⟩ : ∃ j : Fin 1000, i = ix1 j := ⟨i 0, eq_ix1 i⟩
  rw [Cert.KernelIdeal.Cols.kcol3, Cert.ReferenceIdeal.Cols.nnRef_apply]
  exact Cert.Bridge.nn_bridge _ hbin j

end Cert.Columns

end
-- ==== Proof.PreDecode.lean ====
/-
  The precondition read back.  It states that every score is finite — |x| < +∞, which on the extended
  reals says x is a real number — and that every label is 0 or 1.
-/
import proofs.«169377_j29618094474146_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable [hF : Cert.Pre_finite_inputs.Facts]

instance : Subsingleton S_.Idx := ⟨fun a b => funext fun d => d.elim0⟩

/-- |x| below the +∞ literal: x is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- Under the precondition every score is a real and every label is 0 or 1. -/
theorem decode (a0 : FVec Ideal S32768x1000 .f32) (a1 : IVec S32768x1000 32)
    (h : Cert.Pre_finite_inputs.fn (F := Ideal) a0 a1 = fun _ => 1#1) :
    (∀ i : S32768x1000.Idx, ∃ r : ℝ, a0 i = (r : EReal)) ∧ ∀ i : S32768x1000.Idx, a1 i = 0#32 ∨ a1 i = 1#32 := by
  have h0 := congrFun h ix0
  dsimp only [Cert.Pre_finite_inputs.fn] at h0
  obtain ⟨hfin, hbin⟩ := IntOp.andi_eq_one.1 h0
  constructor
  · intro i
    have e := Host.reduce_andi_all _ _ Facts.reducesTo_S32768x1000_S_d0_1 Facts.h_S_ ix0 hfin i
    exact real_of_abs_lt (a0 i) e
  · intro i
    have e := Host.reduce_andi_all _ _ Facts.reducesTo_S32768x1000_S_d0_1 Facts.h_S_ ix0 hbin i
    rcases IntOp.ori_eq_one.1 e with e0 | e1
    · exact Or.inl (IntOp.cmpi_eq.1 e0)
    · exact Or.inr (IntOp.cmpi_eq.1 e1)

end Cert.Pre_finite_inputs.Decode

end
-- ==== Proof.lean ====
/-
  The kernel — a two-core grid that accumulates, per column of a 32768 × 1000 score array with 0/1 labels,
  the positive-class loss softplus (-x), the negative-class loss x + softplus (-x), the number of positive
  labels and (as 1024 per block less the positives) the number of negative labels, and a host epilogue that
  averages the per-column mean losses over the columns having both classes — computes, on the extended reals,
  what the reference computes with whole-array sums of softplus (-x), softplus x and the two label counts.

  Each program's result is one shared function of four column statistics (Tail.lean).  The kernel's
  statistics are read off its grid run: what one step leaves in the accumulator block (Cases.lean,
  Payloads.lean), the accumulation over a core's sixteen steps and the array it writes back (LibResetAcc.lean,
  AccValue.lean), the host lines after the grid (KernelRun.lean) and the rows each step reads
  (KernelCols.lean).  The reference's are read off its run (RefSide.lean).  They agree (Bridge.lean,
  Columns.lean) because sums regroup freely (Regroup.lean), because x + softplus (-x) = softplus x on a finite
  score (Scalars.lean, Terms.lean), and because a label that is 0 or 1 is negative exactly when it is not
  positive (LibBitCount.lean, Terms.lean); finiteness of the scores and the labels being 0 or 1 are what the
  precondition states (PreDecode.lean).
-/
import proofs.«169377_j29618094474146_2_alg».proof.Defs
import proofs.«169377_j29618094474146_2_alg».proof.Proof.Gen.Kernel
import proofs.«169377_j29618094474146_2_alg».proof.Proof.Gen.Kernel.Skeleton
import proofs.«169377_j29618094474146_2_alg».proof.Proof.Gen.Kernel.Launch
import proofs.«169377_j29618094474146_2_alg».proof.Proof.Gen.Kernel.Points
import proofs.«169377_j29618094474146_2_alg».proof.Proof.Gen.Kernel.Frame
import proofs.«169377_j29618094474146_2_alg».proof.Proof.Gen.KernelIdeal
import proofs.«169377_j29618094474146_2_alg».proof.Proof.Gen.KernelIdeal.Skeleton
import proofs.«169377_j29618094474146_2_alg».proof.Proof.Gen.KernelIdeal.Launch
import proofs.«169377_j29618094474146_2_alg».proof.Proof.Gen.KernelIdeal.Points
import proofs.«169377_j29618094474146_2_alg».proof.Proof.Gen.KernelIdeal.Frame
import proofs.«169377_j29618094474146_2_alg».proof.Proof.Gen.ReferenceIdeal
import proofs.«169377_j29618094474146_2_alg».proof.Proof.Gen.Pre_finite_inputs
import proofs.«169377_j29618094474146_2_alg».proof.Proof.RefRunP
import proofs.«169377_j29618094474146_2_alg».proof.Proof.Columns
import proofs.«169377_j29618094474146_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the shared function of their four column statistics, and under the precondition —
    finite scores, labels 0 or 1 — the statistics are equal vectors. -/
theorem algebraic : Cert.algebraic_KernelIdeal_ReferenceIdeal := by
  intro m ρ m' ρ' hpre hagree
  refine ⟨fun c => Cert.KernelIdeal.Run.result (Cert.KernelIdeal.Acc.Gfin m c), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hbin⟩ := Cert.Pre_finite_inputs.Decode.decode _ _ (hpre c)
  rw [Cert.ReferenceIdeal.Cols.res_eq m' c, (hagree c).1, (hagree c).2]
  show _ = Cert.KernelIdeal.Run.result (Cert.KernelIdeal.Acc.Gfin m c)
  unfold Cert.KernelIdeal.Run.result
  rw [Cert.Columns.col0_eq m c, Cert.Columns.col1_eq m c hfin hbin, Cert.Columns.col2_eq m c, Cert.Columns.col3_eq m c hbin]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
